-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S768x30000 : Shape := ⟨2, ![768, 30000]⟩
abbrev S_ : Shape := ⟨0, ![]⟩

class Facts : Prop where
  bcast_S_S768x30000 : S_.BroadcastsInDim S768x30000 (![] : Fin 0 → Fin S768x30000.rank)
  reducesTo_S768x30000_S_d0_1 : S768x30000.ReducesTo [0, 1] S_
  h_S_ : 0 < S_.numel

variable [Facts]

def fn {F : FTy → Type} [FloatOps F] (main_arg0 : IVec S2048x512 32) (main_arg1 : IVec S2048x512 32) (main_arg2 : FVec F S768x30000 .f32) : IVec S_ 1 :=
  let main_v0 : FVec F S768x30000 .f32 := Host.absf main_arg2
  let main_cst : FVec F S_ .f32 := constant S_ .f32 0x7F800000#32
  let main_v1 : FVec F S768x30000 .f32 := broadcastInDim S768x30000 ![] bcast_S_S768x30000 main_cst
  let main_v2 : IVec S768x30000 1 := cmpf .olt main_v0 main_v1
  let main_c : IVec S_ 1 := constantI S_ 1 1#1
  let main_v3 : IVec S_ 1 := (fun x v => Host.reduce IntOp.andi x v reducesTo_S768x30000_S_d0_1 h_S_) main_v2 main_c
  main_v3
-- ==== Kernel.lean ====
abbrev S2048x512 : Shape := ⟨2, ![2048, 512]⟩
abbrev S768x30000 : Shape := ⟨2, ![768, 30000]⟩
abbrev S_ : Shape := ⟨0, ![]⟩
abbrev S2048 : Shape := ⟨1, ![2048]⟩
abbrev S2048x1 : Shape := ⟨2, ![2048, 1]⟩
abbrev S2048x30000 : Shape := ⟨2, ![2048, 30000]⟩
abbrev S2048x512x1 : Shape := ⟨3, ![2048, 512, 1]⟩
abbrev S2048x512x2 : Shape := ⟨3, ![2048, 512, 2]⟩
abbrev S2048x30720 : Shape := ⟨2, ![2048, 30720]⟩
abbrev S768x30720 : Shape := ⟨2, ![768, 30720]⟩
abbrev S2048x768 : Shape := ⟨2, ![2048, 768]⟩
abbrev S1024x768 : Shape := ⟨2, ![1024, 768]⟩
abbrev S1024x1 : Shape := ⟨2, ![1024, 1]⟩
abbrev S768x768 : Shape := ⟨2, ![768, 768]⟩
abbrev S1024 : Shape := ⟨1, ![1024]⟩

abbrev nBuf : Space → Nat
  | .hbm => 68
  | .vmem => 8
  | .smem => 0
  | _ => 0

abbrev bufTy : (tb : Table) → Fin (tcTables nBuf tb) → BufTy
  | .hbm, ⟨0, _⟩ => ⟨S2048x512, .i32⟩
  | .hbm, ⟨1, _⟩ => ⟨S2048x512, .i32⟩
  | .hbm, ⟨2, _⟩ => ⟨S768x30000, .f32⟩
  | .hbm, ⟨3, _⟩ => ⟨S_, .i32⟩
  | .hbm, ⟨4, _⟩ => ⟨S2048x512, .i32⟩
  | .hbm, ⟨5, _⟩ => ⟨S2048x512, .i1⟩
  | .hbm, ⟨6, _⟩ => ⟨S_, .i32⟩
  | .hbm, ⟨7, _⟩ => ⟨S2048x512, .i32⟩
  | .hbm, ⟨8, _⟩ => ⟨S2048x512, .i1⟩
  | .hbm, ⟨9, _⟩ => ⟨S2048x512, .i1⟩
  | .hbm, ⟨10, _⟩ => ⟨S_, .i32⟩
  | .hbm, ⟨11, _⟩ => ⟨S2048x512, .i32⟩
  | .hbm, ⟨12, _⟩ => ⟨S2048x512, .i1⟩
  | .hbm, ⟨13, _⟩ => ⟨S2048x512, .i1⟩
  | .hbm, ⟨14, _⟩ => ⟨S2048x512, .f32⟩
  | .hbm, ⟨15, _⟩ => ⟨S_, .f32⟩
  | .hbm, ⟨16, _⟩ => ⟨S2048, .f32⟩
  | .hbm, ⟨17, _⟩ => ⟨S2048, .i32⟩
  | .hbm, ⟨18, _⟩ => ⟨S2048x1, .i32⟩
  | .hbm, ⟨19, _⟩ => ⟨S2048x512, .i32⟩
  | .hbm, ⟨20, _⟩ => ⟨S_, .i32⟩
  | .hbm, ⟨21, _⟩ => ⟨S_, .i32⟩
  | .hbm, ⟨22, _⟩ => ⟨S2048x512, .i32⟩
  | .hbm, ⟨23, _⟩ => ⟨S2048x512, .i32⟩
  | .hbm, ⟨24, _⟩ => ⟨S_, .f32⟩
  | .hbm, ⟨25, _⟩ => ⟨S2048x30000, .f32⟩
  | .hbm, ⟨26, _⟩ => ⟨S_, .i32⟩
  | .hbm, ⟨27, _⟩ => ⟨S2048x512, .i32⟩
  | .hbm, ⟨28, _⟩ => ⟨S2048x512, .i1⟩
  | .hbm, ⟨29, _⟩ => ⟨S_, .i32⟩
  | .hbm, ⟨30, _⟩ => ⟨S2048x512, .i32⟩
  | .hbm, ⟨31, _⟩ => ⟨S2048x512, .i32⟩
  | .hbm, ⟨32, _⟩ => ⟨S2048x512, .i32⟩
  | .hbm, ⟨33, _⟩ => ⟨S_, .i32⟩
  | .hbm, ⟨34, _⟩ => ⟨S2048x512, .i32⟩
  | .hbm, ⟨35, _⟩ => ⟨S2048x512, .i1⟩
  | .hbm, ⟨36, _⟩ => ⟨S_, .i32⟩
  | .hbm, ⟨37, _⟩ => ⟨S2048x512, .i32⟩
  | .hbm, ⟨38, _⟩ => ⟨S2048x512, .i32⟩
  | .hbm, ⟨39, _⟩ => ⟨S2048x512, .i32⟩
  | .hbm, ⟨40, _⟩ => ⟨S2048x512x1, .i32⟩
  | .hbm, ⟨41, _⟩ => ⟨S2048x512x1, .i32⟩
  | .hbm, ⟨42, _⟩ => ⟨S2048x512x2, .i32⟩
  | .hbm, ⟨43, _⟩ => ⟨S2048x30000, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x1, .f32⟩
  | .hbm, ⟨60, _⟩ => ⟨S_, .i32⟩
  | .hbm, ⟨61, _⟩ => ⟨S_, .f32⟩
  | .hbm, ⟨62, _⟩ => ⟨S2048x30720, .f32⟩
  | .hbm, ⟨63, _⟩ => ⟨S_, .i32⟩
  | .hbm, ⟨64, _⟩ => ⟨S_, .f32⟩
  | .hbm, ⟨65, _⟩ => ⟨S768x30720, .f32⟩
  | .hbm, ⟨66, _⟩ => ⟨S768x30720, .bf16⟩
  | .hbm, ⟨67, _⟩ => ⟨S2048x768, .f32⟩
  | .local _ .vmem, ⟨0, _⟩ => ⟨S1024x768, .f32⟩
  | .local _ .vmem, ⟨1, _⟩ => ⟨S1024x768, .f32⟩
  | .local _ .vmem, ⟨2, _⟩ => ⟨S1024x1, .f32⟩
  | .local _ .vmem, ⟨3, _⟩ => ⟨S1024x1, .f32⟩
  | .local _ .vmem, ⟨4, _⟩ => ⟨S768x768, .bf16⟩
  | .local _ .vmem, ⟨5, _⟩ => ⟨S768x768, .bf16⟩
  | .local _ .vmem, ⟨6, _⟩ => ⟨S1024x768, .f32⟩
  | .local _ .vmem, ⟨7, _⟩ => ⟨S1024x768, .f32⟩
  | _, _ => ⟨S2048x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_13 : Ref sig .tc := ⟨.hbm, 60, rfl⟩
abbrev main_call1_v0 : Ref sig .tc := ⟨.hbm, 61, rfl⟩
abbrev main_v40 : Ref sig .tc := ⟨.hbm, 62, rfl⟩
abbrev main_c_14 : Ref sig .tc := ⟨.hbm, 63, rfl⟩
abbrev main_call2_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 40], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S2048x512 : S_.BroadcastsInDim S2048x512 (![] : Fin 0 → Fin S2048x512.rank)
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  bcast_S_S2048x30000 : S_.BroadcastsInDim S2048x30000 (![] : Fin 0 → Fin S2048x30000.rank)
  bcast_S2048x512_S2048x512x1_0_1 : S2048x512.BroadcastsInDim S2048x512x1 (![0, 1] : Fin 2 → Fin S2048x512x1.rank)
  concatenates_S2048x512x1_S2048x512x1_S2048x512x2_d2 : Shape.Concatenates [S2048x512x1, S2048x512x1] S2048x512x2 2
  bcast_S_S2048 : S_.BroadcastsInDim S2048 (![] : Fin 0 → Fin S2048.rank)
  pads_S2048x30000_S2048x30720_000_07200 : S2048x30000.Pads (![0, 0] : Fin 2 → Nat) ![0, 720] ![0, 0] S2048x30720
  pads_S768x30000_S768x30720_000_07200 : S768x30000.Pads (![0, 0] : Fin 2 → Nat) ![0, 720] ![0, 0] S768x30720
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x768 : S1024x1.Broadcasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  reduces_S1024x768_S1024 : S1024x768.Reduces [1] S1024
  shapeCasts_S1024_S1024x1 : S1024.ShapeCasts S1024x1
  scatter_S2048x30000_S2048x512x2_S2048x512_n_01_01_2_wf : ScatterDims.WF S2048x30000 S2048x512x2 S2048x512 [] [0, 1] [0, 1] 2
  dot_S1024x768_S768x768_S1024x768_1_1_0_0_n_n_wf : DotDims.WF S1024x768 S768x768 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S2048x30720.size a
  hwx0_0 : ∀ i : grid0.Coords, EltTy.bits .f32 = 32 ∨ (Rect.block (s := S2048x30720) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S2048x1.size a
  hwx0_1 : ∀ i : grid0.Coords, EltTy.bits .f32 = 32 ∨ (Rect.block (s := S2048x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x30720.size a
  hwx0_2 : ∀ i : grid0.Coords, EltTy.bits .bf16 = 32 ∨ (Rect.block (s := S768x30720) S768x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S2048x768.size a
  hwx0_3 : ∀ i : grid0.Coords, EltTy.bits .f32 = 32 ∨ (Rect.block (s := S2048x768) S1024x768.size (cc0_transform_3 i) (hinb0_3 i)).WholeWords (EltTy.packing .f32)

variable [Facts₀]

def scatter_S2048x30000_S2048x512x2_S2048x512_n_01_01_2 : ScatterDims S2048x30000 S2048x512x2 S2048x512 where
  updateWindowDims := []
  insertedWindowDims := [0, 1]
  scatterDimsToOperandDims := [0, 1]
  indexVectorDim := 2
  wf := scatter_S2048x30000_S2048x512x2_S2048x512_n_01_01_2_wf
def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf

abbrev win0_0 : Pipeline.Window sig grid0 :=
  Pipeline.Window.ofSpec (Memref.whole main_v40) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S768x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x512 : Shape := ⟨2, ![2048, 512]⟩
abbrev S768x30000 : Shape := ⟨2, ![768, 30000]⟩
abbrev S_ : Shape := ⟨0, ![]⟩
abbrev S2048 : Shape := ⟨1, ![2048]⟩
abbrev S2048x1 : Shape := ⟨2, ![2048, 1]⟩
abbrev S2048x30000 : Shape := ⟨2, ![2048, 30000]⟩
abbrev S2048x512x1 : Shape := ⟨3, ![2048, 512, 1]⟩
abbrev S2048x512x2 : Shape := ⟨3, ![2048, 512, 2]⟩
abbrev S30000x768 : Shape := ⟨2, ![30000, 768]⟩
abbrev S2048x768 : Shape := ⟨2, ![2048, 768]⟩

abbrev nBuf : Space → Nat
  | .hbm => 95
  | .vmem => 0
  | .smem => 0
  | _ => 0

abbrev bufTy : (tb : Table) → Fin (tcTables nBuf tb) → BufTy
  | .hbm, ⟨0, _⟩ => ⟨S2048x512, .i32⟩
  | .hbm, ⟨1, _⟩ => ⟨S2048x512, .i32⟩
  | .hbm, ⟨2, _⟩ => ⟨S768x30000, .f32⟩
  | .hbm, ⟨3, _⟩ => ⟨S_, .i32⟩
  | .hbm, ⟨4, _⟩ => ⟨S2048x512, .i32⟩
  | .hbm, ⟨5, _⟩ => ⟨S2048x512, .i1⟩
  | .hbm, ⟨6, _⟩ => ⟨S_, .i32⟩
  | .hbm, ⟨7, _⟩ => ⟨S2048x512, .i32⟩
  | .hbm, ⟨8, _⟩ => ⟨S2048x512, .i1⟩
  | .hbm, ⟨9, _⟩ => ⟨S2048x512, .i1⟩
  | .hbm, ⟨10, _⟩ => ⟨S_, .i32⟩
  | .hbm, ⟨11, _⟩ => ⟨S2048x512, .i32⟩
  | .hbm, ⟨12, _⟩ => ⟨S2048x512, .i1⟩
  | .hbm, ⟨13, _⟩ => ⟨S2048x512, .i1⟩
  | .hbm, ⟨14, _⟩ => ⟨S2048x512, .f32⟩
  | .hbm, ⟨15, _⟩ => ⟨S_, .f32⟩
  | .hbm, ⟨16, _⟩ => ⟨S2048, .f32⟩
  | .hbm, ⟨17, _⟩ => ⟨S2048, .i32⟩
  | .hbm, ⟨18, _⟩ => ⟨S2048x1, .i32⟩
  | .hbm, ⟨19, _⟩ => ⟨S2048x512, .i32⟩
  | .hbm, ⟨20, _⟩ => ⟨S_, .i32⟩
  | .hbm, ⟨21, _⟩ => ⟨S_, .i32⟩
  | .hbm, ⟨22, _⟩ => ⟨S2048x512, .i32⟩
  | .hbm, ⟨23, _⟩ => ⟨S2048x512, .i32⟩
  | .hbm, ⟨24, _⟩ => ⟨S_, .f32⟩
  | .hbm, ⟨25, _⟩ => ⟨S2048x30000, .f32⟩
  | .hbm, ⟨26, _⟩ => ⟨S_, .i32⟩
  | .hbm, ⟨27, _⟩ => ⟨S2048x512, .i32⟩
  | .hbm, ⟨28, _⟩ => ⟨S2048x512, .i1⟩
  | .hbm, ⟨29, _⟩ => ⟨S_, .i32⟩
  | .hbm, ⟨30, _⟩ => ⟨S2048x512, .i32⟩
  | .hbm, ⟨31, _⟩ => ⟨S2048x512, .i32⟩
  | .hbm, ⟨32, _⟩ => ⟨S2048x512, .i32⟩
  | .hbm, ⟨33, _⟩ => ⟨S_, .i32⟩
  | .hbm, ⟨34, _⟩ => ⟨S2048x512, .i32⟩
  | .hbm, ⟨35, _⟩ => ⟨S2048x512, .i1⟩
  | .hbm, ⟨36, _⟩ => ⟨S_, .i32⟩
  | .hbm, ⟨37, _⟩ => ⟨S2048x512, .i32⟩
  | .hbm, ⟨38, _⟩ => ⟨S2048x512, .i32⟩
  | .hbm, ⟨39, _⟩ => ⟨S2048x512, .i32⟩
  | .hbm, ⟨40, _⟩ => ⟨S2048x512x1, .i32⟩
  | .hbm, ⟨41, _⟩ => ⟨S2048x512x1, .i32⟩
  | .hbm, ⟨42, _⟩ => ⟨S2048x512x2, .i32⟩
  | .hbm, ⟨43, _⟩ => ⟨S2048x30000, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x30000, .f32⟩
  | .hbm, ⟨62, _⟩ => ⟨S2048x30000, .i1⟩
  | .hbm, ⟨63, _⟩ => ⟨S_, .f32⟩
  | .hbm, ⟨64, _⟩ => ⟨S2048x30000, .f32⟩
  | .hbm, ⟨65, _⟩ => ⟨S2048x30000, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x30000, .f32⟩
  | .hbm, ⟨70, _⟩ => ⟨S2048x30000, .f32⟩
  | .hbm, ⟨71, _⟩ => ⟨S2048x30000, .f32⟩
  | .hbm, ⟨72, _⟩ => ⟨S_, .f32⟩
  | .hbm, ⟨73, _⟩ => ⟨S_, .f32⟩
  | .hbm, ⟨74, _⟩ => ⟨S2048x30000, .f32⟩
  | .hbm, ⟨75, _⟩ => ⟨S2048x30000, .f32⟩
  | .hbm, ⟨76, _⟩ => ⟨S_, .f32⟩
  | .hbm, ⟨77, _⟩ => ⟨S2048x30000, .f32⟩
  | .hbm, ⟨78, _⟩ => ⟨S2048x30000, .f32⟩
  | .hbm, ⟨79, _⟩ => ⟨S2048x30000, .f32⟩
  | .hbm, ⟨80, _⟩ => ⟨S_, .f32⟩
  | .hbm, ⟨81, _⟩ => ⟨S2048, .f32⟩
  | .hbm, ⟨82, _⟩ => ⟨S2048x1, .f32⟩
  | .hbm, ⟨83, _⟩ => ⟨S2048x1, .f32⟩
  | .hbm, ⟨84, _⟩ => ⟨S2048x30000, .f32⟩
  | .hbm, ⟨85, _⟩ => ⟨S2048x30000, .f32⟩
  | .hbm, ⟨86, _⟩ => ⟨S30000x768, .f32⟩
  | .hbm, ⟨87, _⟩ => ⟨S2048x768, .f32⟩
  | .hbm, ⟨88, _⟩ => ⟨S2048x768, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S2048x1, .f32⟩
  | .hbm, ⟨93, _⟩ => ⟨S2048x768, .f32⟩
  | .hbm, ⟨94, _⟩ => ⟨S2048x768, .f32⟩
  | _, _ => ⟨S2048x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_v43 : Ref sig .tc := ⟨.hbm, 65, rfl⟩
abbrev main_cst_15 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_call1_v0 : Ref sig .tc := ⟨.hbm, 73, rfl⟩
abbrev main_call1_v1 : Ref sig .tc := ⟨.hbm, 74, rfl⟩
abbrev main_v49 : Ref sig .tc := ⟨.hbm, 75, rfl⟩
abbrev main_cst_17 : Ref sig .tc := ⟨.hbm, 76, rfl⟩
abbrev main_v50 : Ref sig .tc := ⟨.hbm, 77, rfl⟩
abbrev main_v51 : Ref sig .tc := ⟨.hbm, 78, rfl⟩
abbrev main_call2_v0 : Ref sig .tc := ⟨.hbm, 79, rfl⟩
abbrev main_call2_cst : Ref sig .tc := ⟨.hbm, 80, rfl⟩
abbrev main_call2_v1 : Ref sig .tc := ⟨.hbm, 81, rfl⟩
abbrev main_call2_v2 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call3_v0 : Ref sig .tc := ⟨.hbm, 88, rfl⟩
abbrev main_call3_cst : Ref sig .tc := ⟨.hbm, 89, rfl⟩
abbrev main_call3_v1 : Ref sig .tc := ⟨.hbm, 90, rfl⟩
abbrev main_call3_v2 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]

class Facts₀ : Prop where
  bcast_S_S2048x512 : S_.BroadcastsInDim S2048x512 (![] : Fin 0 → Fin S2048x512.rank)
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  bcast_S_S2048x30000 : S_.BroadcastsInDim S2048x30000 (![] : Fin 0 → Fin S2048x30000.rank)
  bcast_S2048x512_S2048x512x1_0_1 : S2048x512.BroadcastsInDim S2048x512x1 (![0, 1] : Fin 2 → Fin S2048x512x1.rank)
  concatenates_S2048x512x1_S2048x512x1_S2048x512x2_d2 : Shape.Concatenates [S2048x512x1, S2048x512x1] S2048x512x2 2
  bcast_S_S2048 : S_.BroadcastsInDim S2048 (![] : Fin 0 → Fin S2048.rank)
  bcast_S_S2048x1 : S_.BroadcastsInDim S2048x1 (![] : Fin 0 → Fin S2048x1.rank)
  bcast_S2048x1_S2048x30000_0_1 : S2048x1.BroadcastsInDim S2048x30000 (![0, 1] : Fin 2 → Fin S2048x30000.rank)
  reducesTo_S2048x30000_S2048_d1 : S2048x30000.ReducesTo [1] S2048
  transposes_S768x30000_S30000x768_1_0 : S768x30000.Transposes [1, 0] S30000x768
  reducesTo_S2048x768_S2048_d1 : S2048x768.ReducesTo [1] S2048
  bcast_S2048x1_S2048x768_0_1 : S2048x1.BroadcastsInDim S2048x768 (![0, 1] : Fin 2 → Fin S2048x768.rank)
  scatter_S2048x30000_S2048x512x2_S2048x512_n_01_01_2_wf : ScatterDims.WF S2048x30000 S2048x512x2 S2048x512 [] [0, 1] [0, 1] 2
  dot_S2048x30000_S30000x768_S2048x768_1_0_0_1_n_n_wf : DotDims.WF S2048x30000 S30000x768 S2048x768 [1] [0] [0] [1] [] []

variable [Facts₀]

def scatter_S2048x30000_S2048x512x2_S2048x512_n_01_01_2 : ScatterDims S2048x30000 S2048x512x2 S2048x512 where
  updateWindowDims := []
  insertedWindowDims := [0, 1]
  scatterDimsToOperandDims := [0, 1]
  indexVectorDim := 2
  wf := scatter_S2048x30000_S2048x512x2_S2048x512_n_01_01_2_wf
def dot_S2048x30000_S30000x768_S2048x768_1_0_0_1_n_n : DotDims S2048x30000 S30000x768 S2048x768 where
  lhsContracting := [1]
  rhsContracting := [0]
  lhsNonContracting := [0]
  rhsNonContracting := [1]
  lhsBatch := []
  rhsBatch := []
  wf := dot_S2048x30000_S30000x768_S2048x768_1_0_0_1_n_n_wf

class Facts : Prop extends Facts₀ where

variable [Facts]
-- ==== Proof.Stages.lean ====
/-
  The host stages of the BM25 encoder, each as a function of the arrays it reads.

  Both programs begin with the same stretch of host operations: a token is VALID when it is attended and its id lies
  strictly between 100 and 30000; `validf` is that flag as a float; `docLen` the number of valid tokens of a row;
  `tf` the term-frequency histogram of a row (each valid token adds 1 at its id, an invalid one adds 0 at id 0);
  `lenNorm` the length normalisation `max (1 + 0.75 · (docLen / 100 - 1)) 0.5` as a column.

  The reference continues on the host: `scoresEps` is the BM25 score `tf · 2.2 / (tf + 1.2 · lenNorm)` where `tf > 0`
  and `0` elsewhere, plus `1e-10`; `unitRows` divides every row by its Euclidean norm; `project` contracts the
  vocabulary axis against the weight matrix; and the result is `unitRows768` of the projection.
-/
import proofs.«100497_j27590869909670_1_alg».proof.ReferenceIdeal

noncomputable section

namespace Cert.Bm25

open Idealize.ShloMosaic Cert.ReferenceIdeal Cert.ReferenceIdeal.Facts₀

variable [Cert.ReferenceIdeal.Facts]
variable {F : FTy → Type} [FloatOps F]

/-! ## The stages both programs share -/

/-- A token is valid when its mask entry is 1 and its id is above 100 and below 30000. -/
def valid (ids mask : IVec S2048x512 32) : IVec S2048x512 1 :=
  andi (andi (cmpi .eq mask (broadcastInDim S2048x512 ![] bcast_S_S2048x512 (constantI S_ 32 1#32)))
      (cmpi .sgt ids (broadcastInDim S2048x512 ![] bcast_S_S2048x512 (constantI S_ 32 100#32))))
    (cmpi .slt ids (broadcastInDim S2048x512 ![] bcast_S_S2048x512 (constantI S_ 32 30000#32)))

/-- The validity flag as a float: 1 or 0. -/
def validf (ids mask : IVec S2048x512 32) : FVec F S2048x512 .f32 :=
  uitofp .f32 (valid ids mask)

/-- The number of valid tokens of each row. -/
def docLen (ids mask : IVec S2048x512 32) : FVec F S2048 .f32 :=
  Host.reduceAdd (validf (F := F) ids mask) (constant S_ .f32 0x00000000#32) reducesTo_S2048x512_S2048_d1 h_S_

/-- The row number at every position. -/
def rows : IVec S2048x512 32 :=
  broadcastInDim S2048x512 ![0, 1] bcast_S2048x1_S2048x512_0_1
    (broadcastInDim S2048x1 ![0] bcast_S2048_S2048x1_0 (iotaInDim S2048 32 0))

/-- The token id where the token is valid, 0 elsewhere. -/
def toks (ids mask : IVec S2048x512 32) : IVec S2048x512 32 :=
  select (valid ids mask) ids (broadcastInDim S2048x512 ![] bcast_S_S2048x512 (constantI S_ 32 0#32))

/-- The row numbers with a negative one wrapped by the row count (none is negative). -/
def rowsW : IVec S2048x512 32 :=
  select (cmpi .slt rows (broadcastInDim S2048x512 ![] bcast_S_S2048x512 (constantI S_ 32 0#32)))
    (addi rows (broadcastInDim S2048x512 ![] bcast_S_S2048x512 (constantI S_ 32 2048#32))) rows

/-- The token ids with a negative one wrapped by the vocabulary size. -/
def toksW (ids mask : IVec S2048x512 32) : IVec S2048x512 32 :=
  select (cmpi .slt (toks ids mask) (broadcastInDim S2048x512 ![] bcast_S_S2048x512 (constantI S_ 32 0#32)))
    (addi (toks ids mask) (broadcastInDim S2048x512 ![] bcast_S_S2048x512 (constantI S_ 32 30000#32))) (toks ids mask)

/-- The (row, id) pair each token scatters to. -/
def scatIdx (ids mask : IVec S2048x512 32) : IVec S2048x512x2 32 :=
  concatenate S2048x512x2 2
    [⟨S2048x512x1, broadcastInDim S2048x512x1 ![0, 1] bcast_S2048x512_S2048x512x1_0_1 rowsW⟩,
     ⟨S2048x512x1, broadcastInDim S2048x512x1 ![0, 1] bcast_S2048x512_S2048x512x1_0_1 (toksW ids mask)⟩]
    concatenates_S2048x512x1_S2048x512x1_S2048x512x2_d2

/-- The term-frequency histogram: into zeros, every token adds its validity flag at (its row, its id). -/
def tf (ids mask : IVec S2048x512 32) : FVec F S2048x30000 .f32 :=
  Host.scatterAdd scatter_S2048x30000_S2048x512x2_S2048x512_n_01_01_2
    (broadcastInDim S2048x30000 ![] bcast_S_S2048x30000 (constant S_ .f32 0x00000000#32))
    (scatIdx ids mask) (validf (F := F) ids mask)

/-- The length normalisation of each row, `max (1 + 0.75 · (docLen / 100 - 1)) 0.5`. -/
def lenNorm1 (ids mask : IVec S2048x512 32) : FVec F S2048 .f32 :=
  maximumf
    (addf (broadcastInDim S2048 ![] bcast_S_S2048 (constant S_ .f32 0x3F800000#32))
      (mulf (broadcastInDim S2048 ![] bcast_S_S2048 (constant S_ .f32 0x3F400000#32))
        (subf (Host.divf (docLen (F := F) ids mask) (broadcastInDim S2048 ![] bcast_S_S2048 (constant S_ .f32 0x42C80000#32)))
          (broadcastInDim S2048 ![] bcast_S_S2048 (constant S_ .f32 0x3F800000#32)))))
    (broadcastInDim S2048 ![] bcast_S_S2048 (constant S_ .f32 0x3F000000#32))

/-- The length normalisation as a column. -/
def lenNorm (ids mask : IVec S2048x512 32) : FVec F S2048x1 .f32 :=
  broadcastInDim S2048x1 ![0] bcast_S2048_S2048x1_0 (lenNorm1 (F := F) ids mask)

/-! ## The reference's own stages -/

/-- The BM25 score where the term occurs and 0 elsewhere, plus `1e-10`. -/
def scoresEps (t : FVec F S2048x30000 .f32) (ln : FVec F S2048x1 .f32) : FVec F S2048x30000 .f32 :=
  addf
    (select (cmpf .ogt t (broadcastInDim S2048x30000 ![] bcast_S_S2048x30000 (constant S_ .f32 0x00000000#32)))
      (Host.divf (mulf t (broadcastInDim S2048x30000 ![] bcast_S_S2048x30000 (constant S_ .f32 0x400CCCCD#32)))
        (addf t (broadcastInDim S2048x30000 ![0, 1] bcast_S2048x1_S2048x30000_0_1
          (mulf (broadcastInDim S2048x1 ![] bcast_S_S2048x1 (constant S_ .f32 0x3F99999A#32)) ln))))
      (broadcastInDim S2048x30000 ![] bcast_S_S2048x30000 (constant S_ .f32 0x00000000#32)))
    (broadcastInDim S2048x30000 ![] bcast_S_S2048x30000 (constant S_ .f32 0x2EDBE6FF#32))

/-- The Euclidean norm of each row of a [2048, 30000] array, as a column. -/
def rowNorm (v : FVec F S2048x30000 .f32) : FVec F S2048x1 .f32 :=
  Host.sqrt (broadcastInDim S2048x1 ![0] bcast_S2048_S2048x1_0
    (Host.reduceAdd (mulf v v) (constant S_ .f32 0x00000000#32) reducesTo_S2048x30000_S2048_d1 h_S_))

/-- Every row divided by its Euclidean norm. -/
def unitRows (v : FVec F S2048x30000 .f32) : FVec F S2048x30000 .f32 :=
  Host.divf v (broadcastInDim S2048x30000 ![0, 1] bcast_S2048x1_S2048x30000_0_1 (rowNorm v))

/-- The projection: the vocabulary axis contracted against the weight matrix (`u · Wᵀ`). -/
def project (u : FVec F S2048x30000 .f32) (W : FVec F S768x30000 .f32) : FVec F S2048x768 .f32 :=
  Host.dotGeneral dot_S2048x30000_S30000x768_S2048x768_1_0_0_1_n_n none u
    (transpose S30000x768 [1, 0] W transposes_S768x30000_S30000x768_1_0)

/-- The Euclidean norm of each row of a [2048, 768] array, as a column. -/
def rowNorm768 (p : FVec F S2048x768 .f32) : FVec F S2048x1 .f32 :=
  Host.sqrt (broadcastInDim S2048x1 ![0] bcast_S2048_S2048x1_0
    (Host.reduceAdd (mulf p p) (constant S_ .f32 0x00000000#32) reducesTo_S2048x768_S2048_d1 h_S_))

/-- Every row of a [2048, 768] array divided by its Euclidean norm. -/
def unitRows768 (p : FVec F S2048x768 .f32) : FVec F S2048x768 .f32 :=
  Host.divf p (broadcastInDim S2048x768 ![0, 1] bcast_S2048x1_S2048x768_0_1 (rowNorm768 p))

/-- The reference's result: normalise the scores, project, normalise again. -/
def refOut (ids mask : IVec S2048x512 32) (W : FVec F S768x30000 .f32) : FVec F S2048x768 .f32 :=
  unitRows768 (project (unitRows (scoresEps (tf (F := F) ids mask) (lenNorm (F := F) ids mask))) W)

end Cert.Bm25

end
-- ==== Proof.Score.lean ====
/-
  The score of one (row, term) entry, as a function of two extended reals: the term's count `t` in the row and the
  row's length normalisation `l`. It is `t · 2.2 / (t + 1.2 · l)` where `t > 0` and `0` elsewhere, plus `1e-10`
  (the three literals are the single-precision patterns both programs spell). Both programs compute exactly this at
  every entry: the kernel on a block, the reference on the whole array.
-/
import Idealize.ShloMosaic.PureOps
import Idealize.ShloMosaic.PureOps.Ideal

noncomputable section

namespace Cert.Bm25

open Idealize.ShloMosaic

/-- The BM25 score of a count `t` under the length normalisation `l`, plus `1e-10`. -/
def vEntry (t l : Ideal .f32) : Ideal .f32 :=
  FloatOps.addf
    (Scalar.select (FloatOps.cmpf .ogt t (FloatOps.ofBits .f32 0x00000000#32))
      (FloatOps.divf (FloatOps.mulf t (FloatOps.ofBits .f32 0x400CCCCD#32))
        (FloatOps.addf t (FloatOps.mulf (FloatOps.ofBits .f32 0x3F99999A#32) l)))
      (FloatOps.ofBits .f32 0x00000000#32))
    (FloatOps.ofBits .f32 0x2EDBE6FF#32)

end Cert.Bm25

end
-- ==== Proof.RefRead.lean ====
/-
  The reference's own host stages read at an index, at the ideal values.

  Each stage of the reference after the shared prefix is a composition of pointwise operations, broadcasts, one sum
  over an axis and one contraction. Read at a result index (b, j) — a row and a term, or a row and an output
  feature — each is an explicit expression in the entries of its arguments:

    * the score array at (b, j) is the scalar score of the count at (b, j) under the row's length normalisation;
    * a row-normalised array at (b, j) is the entry divided by the square root of the row's sum of squares
      (the host sum starts from the zero pattern, which is the extended real zero and drops out);
    * the projection at (b, d) is the sum over the vocabulary of the row `b` of the left operand against the row `d`
      of the weight matrix (the contraction runs over one axis, and the transposed weight matrix at (j, d) is the
      weight matrix at (d, j)).
-/
import proofs.«100497_j27590869909670_1_alg».proof.Proof.Stages
import proofs.«100497_j27590869909670_1_alg».proof.Proof.Score
import proofs.«100497_j27590869909670_1_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws

noncomputable section

namespace Cert.Bm25

open Idealize.ShloMosaic Idealize.ShloMosaic.ValueIdx Cert.ReferenceIdeal Cert.ReferenceIdeal.Facts₀

variable [Cert.ReferenceIdeal.Facts]

namespace RefRead

/-! ## Layout operations of the reference read at literal coordinates -/

/-- The host's square root at an index is the ideal square root of the element. -/
theorem hostSqrt_apply {s : Shape} {φ : FTy} (x : FVec Ideal s φ) (i : s.Idx) :
    Host.sqrt x i = Ideal.sqrt (x i) := rfl

/-- A vector of 2048 entries made a [2048, 1] column reads entry `b` at (b, 0). -/
theorem bcastColumn_apply {α : Type} (x : S2048.Idx → α) (b : Fin 2048) :
    broadcastInDim S2048x1 ![0] bcast_S2048_S2048x1_0 x (ix2 b (0 : Fin 1)) = x (ix1 b) :=
  broadcastInDim_apply ![0] bcast_S2048_S2048x1_0 x (ix2 b (0 : Fin 1)) (ix1 b)
    (fun a => by match a with | ⟨0, _⟩ => rfl)

/-- A [2048, 1] column laid along 30000 columns reads, at (b, j), the column's entry (b, 0). -/
theorem bcast30000_apply {α : Type} (x : S2048x1.Idx → α) (b : Fin 2048) (j : Fin 30000) :
    broadcastInDim S2048x30000 ![0, 1] bcast_S2048x1_S2048x30000_0_1 x (ix2 b j) = x (ix2 b (0 : Fin 1)) :=
  broadcastInDim_apply ![0, 1] bcast_S2048x1_S2048x30000_0_1 x (ix2 b j) (ix2 b (0 : Fin 1))
    (fun a => by match a with | ⟨0, _⟩ => rfl | ⟨1, _⟩ => rfl)

/-- A [2048, 1] column laid along 768 columns reads, at (b, d), the column's entry (b, 0). -/
theorem bcast768_apply {α : Type} (x : S2048x1.Idx → α) (b : Fin 2048) (d : Fin 768) :
    broadcastInDim S2048x768 ![0, 1] bcast_S2048x1_S2048x768_0_1 x (ix2 b d) = x (ix2 b (0 : Fin 1)) :=
  broadcastInDim_apply ![0, 1] bcast_S2048x1_S2048x768_0_1 x (ix2 b d) (ix2 b (0 : Fin 1))
    (fun a => by match a with | ⟨0, _⟩ => rfl | ⟨1, _⟩ => rfl)

end RefRead

open RefRead

/-! ## The scores -/

/-- The reference's score array at (b, j) is the scalar score of the count there under the row's length normalisation. -/
theorem scoresEps_apply (t : FVec Ideal S2048x30000 .f32) (ln : FVec Ideal S2048x1 .f32) (b : Fin 2048) (j : Fin 30000) :
    scoresEps t ln (ix2 b j) = vEntry (t (ix2 b j)) (ln (ix2 b (0 : Fin 1))) := by
  unfold scoresEps
  rw [addf_apply, select_apply, hostDivf_apply, addf_apply, bcast30000_apply]
  rfl

/-! ## Rows divided by their Euclidean norm -/

namespace RefRead

/-- The norm column of a [2048, 30000] array at (b, 0): the square root of the row's sum of squares. -/
theorem rowNorm_apply (v : FVec Ideal S2048x30000 .f32) (b : Fin 2048) :
    rowNorm v (ix2 b (0 : Fin 1)) = Ideal.sqrt (∑ j' : Fin 30000, v (ix2 b j') * v (ix2 b j')) := by
  have hR : S2048x30000.Reduces [1] S2048 := by decide
  unfold rowNorm
  rw [hostSqrt_apply, bcastColumn_apply, hostReduceAdd_apply,
    Ideal.hostReduceAdd_single reducesTo_S2048x30000_S2048_d1 hR, constant_apply, Ideal.ofBits_zero_f32, zero_add]
  refine congrArg Ideal.sqrt (Finset.sum_congr rfl fun (k : Fin 30000) _ => ?_)
  have e : hR.lift (ix1 b) k = ix2 b k := funext fun a => Fin.ext (by
    match a with | ⟨0, _⟩ => rfl | ⟨1, _⟩ => rfl)
  rw [e]
  exact mulf_apply v v (ix2 b k)

end RefRead

/-- A [2048, 30000] array with every row divided by its Euclidean norm, at (b, j). -/
theorem unitRows_apply (v : FVec Ideal S2048x30000 .f32) (b : Fin 2048) (j : Fin 30000) :
    unitRows v (ix2 b j)
      = Ideal.div (v (ix2 b j)) (Ideal.sqrt (∑ j' : Fin 30000, v (ix2 b j') * v (ix2 b j'))) := by
  unfold unitRows
  rw [hostDivf_apply, bcast30000_apply, rowNorm_apply]

namespace RefRead

/-- The norm column of a [2048, 768] array at (b, 0): the square root of the row's sum of squares. -/
theorem rowNorm768_apply (p : FVec Ideal S2048x768 .f32) (b : Fin 2048) :
    rowNorm768 p (ix2 b (0 : Fin 1)) = Ideal.sqrt (∑ d' : Fin 768, p (ix2 b d') * p (ix2 b d')) := by
  have hR : S2048x768.Reduces [1] S2048 := by decide
  unfold rowNorm768
  rw [hostSqrt_apply, bcastColumn_apply, hostReduceAdd_apply,
    Ideal.hostReduceAdd_single reducesTo_S2048x768_S2048_d1 hR, constant_apply, Ideal.ofBits_zero_f32, zero_add]
  refine congrArg Ideal.sqrt (Finset.sum_congr rfl fun (k : Fin 768) _ => ?_)
  have e : hR.lift (ix1 b) k = ix2 b k := funext fun a => Fin.ext (by
    match a with | ⟨0, _⟩ => rfl | ⟨1, _⟩ => rfl)
  rw [e]
  exact mulf_apply p p (ix2 b k)

end RefRead

/-- A [2048, 768] array with every row divided by its Euclidean norm, at (b, d). -/
theorem unitRows768_apply (p : FVec Ideal S2048x768 .f32) (b : Fin 2048) (d : Fin 768) :
    unitRows768 p (ix2 b d)
      = Ideal.div (p (ix2 b d)) (Ideal.sqrt (∑ d' : Fin 768, p (ix2 b d') * p (ix2 b d'))) := by
  unfold unitRows768
  rw [hostDivf_apply, bcast768_apply, rowNorm768_apply]

/-! ## The projection -/

namespace RefRead

/-- The left operand's index on its free axis is the result's row. -/
theorem projLhs0 (i : S2048x768.Idx) (q : dot_S2048x30000_S30000x768_S2048x768_1_0_0_1_n_n.contr.Idx) :
    (dot_S2048x30000_S30000x768_S2048x768_1_0_0_1_n_n.lhsIdx i q 0).val = (i 0).val := by
  unfold DotDims.lhsIdx
  rw [dif_neg (show ¬(0 : Fin S2048x30000.rank) ∈ dot_S2048x30000_S30000x768_S2048x768_1_0_0_1_n_n.lhsBatch by decide),
    dif_pos (show (0 : Fin S2048x30000.rank) ∈ dot_S2048x30000_S30000x768_S2048x768_1_0_0_1_n_n.lhsNonContracting by decide)]
  rfl

/-- The left operand's index on its contracted axis is the contraction coordinate. -/
theorem projLhs1 (i : S2048x768.Idx) (q : dot_S2048x30000_S30000x768_S2048x768_1_0_0_1_n_n.contr.Idx) :
    (dot_S2048x30000_S30000x768_S2048x768_1_0_0_1_n_n.lhsIdx i q 1).val = (q ⟨0, by decide⟩).val :=
  dot_S2048x30000_S30000x768_S2048x768_1_0_0_1_n_n.lhsIdx_val_of_single rfl i q

/-- The right operand's index on its contracted axis is the contraction coordinate. -/
theorem projRhs0 (i : S2048x768.Idx) (q : dot_S2048x30000_S30000x768_S2048x768_1_0_0_1_n_n.contr.Idx) :
    (dot_S2048x30000_S30000x768_S2048x768_1_0_0_1_n_n.rhsIdx i q 0).val = (q ⟨0, by decide⟩).val :=
  dot_S2048x30000_S30000x768_S2048x768_1_0_0_1_n_n.rhsIdx_val_of_single rfl i q

/-- The right operand's index on its free axis is the result's column. -/
theorem projRhs1 (i : S2048x768.Idx) (q : dot_S2048x30000_S30000x768_S2048x768_1_0_0_1_n_n.contr.Idx) :
    (dot_S2048x30000_S30000x768_S2048x768_1_0_0_1_n_n.rhsIdx i q 1).val = (i 1).val := by
  unfold DotDims.rhsIdx
  rw [dif_neg (show ¬(1 : Fin S30000x768.rank) ∈ dot_S2048x30000_S30000x768_S2048x768_1_0_0_1_n_n.rhsBatch by decide),
    dif_pos (show (1 : Fin S30000x768.rank) ∈ dot_S2048x30000_S30000x768_S2048x768_1_0_0_1_n_n.rhsNonContracting by decide)]
  rfl

/-- The transposed weight matrix at (j, d) is the weight matrix at (d, j). -/
theorem transposeW_apply {α : Type} (W : S768x30000.Idx → α) (j : Fin 30000) (d : Fin 768) :
    transpose S30000x768 [1, 0] W transposes_S768x30000_S30000x768_1_0 (ix2 j d) = W (ix2 d j) :=
  transpose_apply [1, 0] W transposes_S768x30000_S30000x768_1_0 (ix2 j d) (ix2 d j)
    (fun a => by match a with | ⟨0, _⟩ => rfl | ⟨1, _⟩ => rfl)

end RefRead

/-- The projection at (b, d): the row `b` of `u` against the row `d` of `W`, summed over the vocabulary. -/
theorem project_apply (u : FVec Ideal S2048x30000 .f32) (W : FVec Ideal S768x30000 .f32) (b : Fin 2048) (d : Fin 768) :
    project u W (ix2 b d) = ∑ j : Fin 30000, u (ix2 b j) * W (ix2 d j) := by
  unfold project
  simp only [Host.dotGeneral]
  rw [Ideal.dotGeneral_apply,
    ← Equiv.sum_comp (contrEquiv1 dot_S2048x30000_S30000x768_S2048x768_1_0_0_1_n_n 30000 rfl rfl).symm]
  refine Finset.sum_congr rfl fun k _ => ?_
  have hk := contrEquiv1_symm_val dot_S2048x30000_S30000x768_S2048x768_1_0_0_1_n_n 30000 rfl rfl k
  have el : dot_S2048x30000_S30000x768_S2048x768_1_0_0_1_n_n.lhsIdx (ix2 b d)
      ((contrEquiv1 dot_S2048x30000_S30000x768_S2048x768_1_0_0_1_n_n 30000 rfl rfl).symm k) = ix2 b k :=
    funext fun a => Fin.ext (by
      match a with
      | ⟨0, _⟩ => exact projLhs0 _ _
      | ⟨1, _⟩ => exact (projLhs1 _ _).trans hk)
  have er : dot_S2048x30000_S30000x768_S2048x768_1_0_0_1_n_n.rhsIdx (ix2 b d)
      ((contrEquiv1 dot_S2048x30000_S30000x768_S2048x768_1_0_0_1_n_n 30000 rfl rfl).symm k) = ix2 k d :=
    funext fun a => Fin.ext (by
      match a with
      | ⟨0, _⟩ => exact (projRhs0 _ _).trans hk
      | ⟨1, _⟩ => exact projRhs1 _ _)
  rw [el, er, transposeW_apply]

end Cert.Bm25

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LibFiniteOps.lean ====
/-
  Arrays of finite extended reals, and the host operations that keep them finite: the pointwise sum and maximum, the
  quotient by an array without zeros, a matrix product, a gather (each result element is an operand element), an
  accumulating scatter (each result element is an operand element plus a finite sum of update elements), and the
  layout operations (slices, reshapes, broadcasts: each result element is an operand element). The zero and the one
  of the single-precision format are finite.
-/
import Idealize.ShloMosaic.PureOps.Ideal.Laws
import proofs.«100497_j27590869909670_1_alg».proof.Proof.LibFinite

noncomputable section

namespace Cert.LibFinite

open Idealize.ShloMosaic

/-- Every element of the array is a real number. -/
def FinV {s : Shape} (x : s.Idx → EReal) : Prop := ∀ i, IsFin (x i)

namespace FinV

variable {s t : Shape}

theorem addf {x y : FVec Ideal s .f32} (hx : FinV x) (hy : FinV y) : FinV (Idealize.ShloMosaic.addf x y) :=
  fun i => (hx i).add (hy i)

theorem maximumf {x y : FVec Ideal s .f32} (hx : FinV x) (hy : FinV y) : FinV (Idealize.ShloMosaic.maximumf x y) :=
  fun i => (hx i).max (hy i)

/-- The host quotient by an array with no zero element. -/
theorem hostDivf {x y : FVec Ideal s .f32} (hx : FinV x) (hy : FinV y) (h0 : ∀ i, y i ≠ 0) : FinV (Host.divf x y) :=
  fun i => (hx i).div (hy i) (h0 i)

/-- A host matrix product (any dimension numbers): each element is a finite sum of products. -/
theorem dotGeneral {sl sr so : Shape} (d : DotDims sl sr so) (prec : Option ContractPrecision)
    {l : FVec Ideal sl .f32} {r : FVec Ideal sr .f32} (hl : FinV l) (hr : FinV r) : FinV (Host.dotGeneral d prec l r) := by
  intro j
  show IsFin (FloatOps.dotGeneral d prec .single l r j)
  rw [Ideal.dotGeneral_apply]
  exact IsFin.sum _ _ fun k _ => (hl _).mul (hr _)

/-- A gather reads operand elements. -/
theorem gather {si : Shape} {w : Nat} (d : GatherDims s si t) {x : s.Idx → EReal} (idx : IVec si w) (hx : FinV x) :
    FinV (Host.gather d x idx) := fun _ => hx _

/-- An accumulating scatter: the operand element plus the sum of the updates that land on it. -/
theorem scatterAdd {si u : Shape} {w : Nat} (d : ScatterDims s si u) {x : FVec Ideal s .f32} (idx : IVec si w)
    {upd : FVec Ideal u .f32} (hx : FinV x) (hu : FinV upd) : FinV (Host.scatterAdd d x idx upd) := by
  intro i
  show IsFin (Ideal.hostScatterAdd d x idx upd i)
  unfold Ideal.hostScatterAdd
  exact (hx i).add (IsFin.sum _ _ fun j _ => hu j)

theorem broadcastInDim (dims : Fin s.rank → Fin t.rank) (h : s.BroadcastsInDim t dims) {x : s.Idx → EReal} (hx : FinV x) :
    FinV (Idealize.ShloMosaic.broadcastInDim t dims h x) := fun _ => hx _

theorem shapeCast {x : s.Idx → EReal} (h : s.ShapeCasts t) (hx : FinV x) : FinV (Idealize.ShloMosaic.shapeCast t x h) :=
  fun _ => hx _

theorem extractStridedSlice (off : Fin s.rank → Nat) {x : s.Idx → EReal} (h : s.Slices off t) (hx : FinV x) :
    FinV (Idealize.ShloMosaic.extractStridedSlice t off x h) := fun _ => hx _

/-- The single-precision zero. -/
theorem constant_zero : FinV (constant (F := Ideal) s .f32 0x00000000#32) := fun _ => by
  show IsFin (Ideal.ofBits .f32 0x00000000#32)
  rw [Ideal.ofBits_zero_f32]; exact IsFin.zero

end FinV

/-- The single-precision pattern of one denotes one. -/
theorem ofBits_one_f32 : Ideal.ofBits .f32 0x3F800000#32 = 1 := by
  simp [Ideal.ofBits, Ideal.ieee]
  first
    | (rw [← EReal.coe_mul, ← EReal.coe_one]; exact congrArg _ (by norm_num))
    | (norm_cast; norm_num)
    | (rw [← EReal.coe_mul]; norm_num)

theorem FinV.constant_one {s : Shape} : FinV (constant (F := Ideal) s .f32 0x3F800000#32) := fun _ => by
  show IsFin (Ideal.ofBits .f32 0x3F800000#32)
  rw [ofBits_one_f32]; exact IsFin.one

end Cert.LibFinite

end
-- ==== Proof.LibScatterSign.lean ====
/-
  The sign of an accumulating scatter over the extended reals.

  At the ideal values `x.at[idx].add(u)` is, entry by entry, the operand's entry plus the sum of the update entries
  that land on it. So if no operand entry and no update entry is negative, no entry of the result is: a degree count
  (ones scattered into zeros) is such a result, and 1 + it, or its maximum with 1, is then a divisor that is not zero.
  Stated for any shapes, any index width and any scatter dimension numbers.
-/
import Idealize.ShloMosaic.PureOps.Ideal
import Idealize.ShloMosaic.PureOps.Contract

noncomputable section

namespace Idealize.ShloMosaic.ScatterSign

open Idealize.ShloMosaic

/-- An accumulating scatter of entries that are not negative into entries that are not negative has no negative
    entry: each is an operand entry plus a sum of update entries. -/
theorem scatterAdd_nonneg {s si su : Shape} {φ : FTy} (d : ScatterDims s si su) {w : Nat} (x : FVec Ideal s φ) (idx : IVec si w)
    (upd : FVec Ideal su φ) (hx : ∀ i, (0 : EReal) ≤ x i) (hu : ∀ j, (0 : EReal) ≤ upd j) (i : s.Idx) :
    (0 : EReal) ≤ Host.scatterAdd d x idx upd i := by
  unfold Host.scatterAdd
  rw [Ideal.hostScatterAdd_def]
  unfold Ideal.hostScatterAdd
  exact add_nonneg (hx i) (Finset.sum_nonneg fun j _ => hu j)

/-- One plus an entry that is not negative is not zero. -/
theorem add_one_ne_zero_of_nonneg {d : EReal} (h : 0 ≤ d) : d + 1 ≠ 0 := by
  have h1 : (1 : EReal) ≤ d + 1 := le_add_of_nonneg_left h
  intro e; rw [e] at h1; exact absurd h1 (by simp)

/-- The maximum of anything with one is not zero. -/
theorem max_one_ne_zero (d : EReal) : max d 1 ≠ 0 :=
  ne_of_gt (lt_of_lt_of_le zero_lt_one (le_max_right _ _))

end Idealize.ShloMosaic.ScatterSign

end
-- ==== Proof.Positive.lean ====
/-
  The scores are positive real numbers.

  A validity flag is the unsigned value of a one-bit word, so it is a real number. The document length of a row is
  zero plus a finite sum of flags and an entry of the term-frequency histogram is zero plus a finite sum of flags:
  both are real numbers. The length normalisation `max (1 + 3/4 · (d / 100 - 1)) (1/2)` of a real length `d` is a
  real number that is at least `1/2` (the four single-precision patterns denote exactly `1`, `3/4`, `100`, `1/2`).

  For a real count `t` and a real normalisation `l ≥ 1/2` the score `(t · a / (t + b · l) if t > 0 else 0) + e` is a
  positive real: the patterns of `a`, `b`, `e` denote the positive dyadic rationals `9227469 / 2^22`,
  `10066330 / 2^23`, `14411519 / 2^57`; where `t > 0` the divisor `t + b · l` is a positive real, so the quotient of
  the extended reals is the real quotient and it is positive; elsewhere the entry is `0 + e`.

  Last, the precondition "every `|W|` compares below plus infinity" makes every weight a real number: the pattern
  `0x7F800000` denotes `⊤`, and `max x (-x) < ⊤` fails at `x = ⊤` and at `x = ⊥`.

  Every unfolding of a bit pattern into the extended real it denotes is in this module.
-/
import proofs.«100497_j27590869909670_1_alg».proof.Proof.Stages
import proofs.«100497_j27590869909670_1_alg».proof.Proof.Score
import proofs.«100497_j27590869909670_1_alg».proof.Proof.LibFinite
import proofs.«100497_j27590869909670_1_alg».proof.Proof.LibFiniteOps
import proofs.«100497_j27590869909670_1_alg».proof.Proof.LibScatterSign
import proofs.«100497_j27590869909670_1_alg».proof.Proof.Gen.ReferenceIdeal
import proofs.«100497_j27590869909670_1_alg».proof.Proof.Gen.Pre_finite_inputs
import Idealize.ShloMosaic.Lib.ReduceAll
import Idealize.ShloMosaic.Lib.ValueIdx

noncomputable section

namespace Cert.Bm25

open Idealize.ShloMosaic Cert.ReferenceIdeal Cert.LibFinite

/-! ## The single-precision patterns the two programs spell, as the extended reals they denote -/

theorem lit_zero : Ideal.ofBits .f32 0x00000000#32 = ((0 : ℝ) : EReal) := by
  simp [Ideal.ofBits, Ideal.ieee]

theorem lit_one : Ideal.ofBits .f32 0x3F800000#32 = ((1 : ℝ) : EReal) := by
  simp [Ideal.ofBits, Ideal.ieee, -EReal.coe_mul]; norm_num

theorem lit_three_quarters : Ideal.ofBits .f32 0x3F400000#32 = ((3 / 4 : ℝ) : EReal) := by
  simp [Ideal.ofBits, Ideal.ieee, -EReal.coe_mul]; norm_num

theorem lit_hundred : Ideal.ofBits .f32 0x42C80000#32 = ((100 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

/-- The pattern of `2.2` denotes `9227469 / 2^22`. -/
theorem lit_c22 : Ideal.ofBits .f32 0x400CCCCD#32 = ((9227469 / 4194304 : ℝ) : EReal) := by
  simp [Ideal.ofBits, Ideal.ieee, -EReal.coe_mul]; norm_num

/-- The pattern of `1.2` denotes `10066330 / 2^23`. -/
theorem lit_c12 : Ideal.ofBits .f32 0x3F99999A#32 = ((10066330 / 8388608 : ℝ) : EReal) := by
  simp [Ideal.ofBits, Ideal.ieee, -EReal.coe_mul]; norm_num

/-- The pattern of `1e-10` denotes `14411519 / 2^57`. -/
theorem lit_ceps : Ideal.ofBits .f32 0x2EDBE6FF#32 = ((14411519 / 2 ^ 57 : ℝ) : EReal) := by
  simp [Ideal.ofBits, Ideal.ieee, -EReal.coe_mul]; norm_num

/-- The pattern of plus infinity denotes `⊤`. -/
theorem lit_inf : Ideal.ofBits .f32 0x7F800000#32 = ⊤ := by
  simp [Ideal.ofBits, Ideal.ieee]

/-! ## The score of a real count under a real normalisation that is at least one half -/

/-- For a real count `t` and a real `l ≥ 1/2` the score is a positive real: where `t > 0` the divisor
    `t + b · l` is a positive real and the quotient is the real quotient; elsewhere the entry is `0 + e`. -/
theorem vEntry_pos (t l : ℝ) (hl : (1/2 : ℝ) ≤ l) : ∃ r : ℝ, 0 < r ∧ vEntry (t : EReal) (l : EReal) = (r : EReal) := by
  unfold vEntry
  simp only [Ideal.ofBits_def, Ideal.addf_def, Ideal.mulf_def, Ideal.divf_def]
  rw [lit_zero, lit_c22, lit_c12, lit_ceps]
  have hcmp : FloatOps.cmpf (F := Ideal) (φ := .f32) .ogt ((t : ℝ) : EReal) ((0 : ℝ) : EReal)
      = BitVec.ofBool (decide (0 < t)) := by
    show Ideal.cmp .ogt _ _ = _
    simp [Ideal.cmp]
  rw [hcmp]
  by_cases ht : 0 < t
  · have hd : (0 : ℝ) < t + 10066330 / 8388608 * l := by nlinarith
    simp only [ht, decide_true, BitVec.ofBool_true, Scalar.select, if_true]
    have h1 : 0 < t * (9227469 / 4194304) * (1 / (t + 10066330 / 8388608 * l)) :=
      mul_pos (mul_pos ht (by norm_num)) (one_div_pos.mpr hd)
    have h2 : (0 : ℝ) < 14411519 / 2 ^ 57 := by positivity
    refine ⟨t * (9227469 / 4194304) * (1 / (t + 10066330 / 8388608 * l)) + 14411519 / 2 ^ 57, add_pos h1 h2, ?_⟩
    rw [← EReal.coe_mul, ← EReal.coe_mul, ← EReal.coe_add, Ideal.div_coe (ne_of_gt hd), ← EReal.coe_mul,
      ← EReal.coe_add]
  · simp only [ht, decide_false, BitVec.ofBool_false, Scalar.select]
    rw [if_neg (by decide)]
    refine ⟨0 + 14411519 / 2 ^ 57, by positivity, ?_⟩
    rw [← EReal.coe_add]

/-! ## The counts are real numbers -/

/-- A validity flag is the unsigned value of a one-bit word: a real number. -/
theorem validf_fin (ids mask : IVec S2048x512 32) : FinV (validf (F := Ideal) ids mask) :=
  fun j => ⟨((valid ids mask j).toNat : ℝ), rfl⟩

/-- An entry of the term-frequency histogram is zero plus a finite sum of flags. -/
theorem tf_real (ids mask : IVec S2048x512 32) (i : S2048x30000.Idx) :
    ∃ r : ℝ, tf (F := Ideal) ids mask i = (r : EReal) := by
  unfold tf
  exact FinV.scatterAdd _ _ (FinV.broadcastInDim _ _ FinV.constant_zero) (validf_fin ids mask) i

/-- The document length of a row is zero plus a finite sum of flags. -/
theorem docLen_real (ids mask : IVec S2048x512 32) (j : S2048.Idx) :
    ∃ d : ℝ, docLen (F := Ideal) ids mask j = (d : EReal) := by
  unfold docLen Host.reduceAdd
  rw [Ideal.hostReduceAdd_def]
  unfold Ideal.hostReduceAdd
  exact IsFin.add (FinV.constant_zero _) (IsFin.sum _ _ fun i _ => validf_fin ids mask i)

/-! ## The length normalisation is a real number that is at least one half -/

/-- `max (1 + 3/4 · (d / 100 - 1)) (1/2)` at a real `d`: the divisor `100` is a non-zero real, so every step stays
    among the reals, and a maximum is at least its second argument. -/
theorem lenNorm_scalar (x : EReal) (d : ℝ) (hx : x = (d : EReal)) : ∃ r : ℝ, (1 / 2 : ℝ) ≤ r ∧
    FloatOps.maximumf (F := Ideal) (φ := .f32)
      (FloatOps.addf (FloatOps.ofBits .f32 0x3F800000#32)
        (FloatOps.mulf (FloatOps.ofBits .f32 0x3F400000#32)
          (FloatOps.subf (FloatOps.hostDivf x (FloatOps.ofBits .f32 0x42C80000#32))
            (FloatOps.ofBits .f32 0x3F800000#32))))
      (FloatOps.ofBits .f32 0x3F000000#32) = (r : EReal) := by
  subst hx
  simp only [Ideal.ofBits_def, Ideal.addf_def, Ideal.mulf_def, Ideal.subf_def, Ideal.hostDivf_def, Ideal.maximumf_def]
  rw [lit_one, lit_three_quarters, lit_hundred, lit_half, Ideal.div_coe (by norm_num : (100 : ℝ) ≠ 0)]
  refine ⟨max (1 + 3 / 4 * (d * (1 / 100) - 1)) (1 / 2), le_max_right _ _, ?_⟩
  rw [← EReal.coe_mul, ← EReal.coe_sub, ← EReal.coe_mul, ← EReal.coe_add]
  exact (EReal.coe_strictMono.monotone.map_max).symm

theorem lenNorm1_real (ids mask : IVec S2048x512 32) (j : S2048.Idx) :
    ∃ r : ℝ, (1/2 : ℝ) ≤ r ∧ lenNorm1 (F := Ideal) ids mask j = (r : EReal) := by
  obtain ⟨d, hd⟩ := docLen_real ids mask j
  exact lenNorm_scalar _ d hd

/-- The column of normalisations repeats the row's value. -/
theorem lenNorm_real (ids mask : IVec S2048x512 32) (i : S2048x1.Idx) :
    ∃ r : ℝ, (1/2 : ℝ) ≤ r ∧ lenNorm (F := Ideal) ids mask i = (r : EReal) := by
  unfold lenNorm broadcastInDim
  exact lenNorm1_real ids mask _

/-! ## Under the precondition every weight is a real number -/

/-- An extended real whose absolute value `max x (-x)` compares below `⊤` is a real: at `⊤` and at `⊥` the
    absolute value is `⊤`. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [lit_inf] at h'
  induction x using EReal.rec with
  | bot => simp [Ideal.cmp] at h'
  | coe r => exact ⟨r, rfl⟩
  | top => simp [Ideal.cmp] at h'

/-- The rank-zero shape has one index. -/
instance : Subsingleton Cert.Pre_finite_inputs.S_.Idx := ⟨fun a b => funext fun d => d.elim0⟩

/-- The precondition is a conjunction over all entries of `|W| < +∞`; it holds, so each conjunct does. -/
theorem W_real (ids mask : IVec S2048x512 32) (W : FVec Ideal S768x30000 .f32)
    (h : Cert.Pre_finite_inputs.fn (F := Ideal) ids mask W = fun _ => 1#1) (i : S768x30000.Idx) :
    ∃ r : ℝ, W i = (r : EReal) := by
  have h0 := congrFun h ValueIdx.ix0
  dsimp only [Cert.Pre_finite_inputs.fn] at h0
  exact real_of_abs_lt_inf (W i) (Host.reduce_andi_all _ _ _ _ _ h0 i)

end Cert.Bm25

end
-- ==== Proof.LibNormalizeCancel.lean ====
/-
  General lemmas on finite sums and on the normalisation of a vector by its Euclidean norm,
  over the extended reals.

  * `sum_tiles`: a sum over `a` consecutive blocks of `b` consecutive indices is the sum over
    the first `a * b` indices.
  * `sum_drop_zeros`: trailing zero terms of a sum may be dropped.
  * `normalize_cancel`: a vector is divided by its (positive) Euclidean norm, mapped by a real
    matrix, and the image divided by its own Euclidean norm; the first norm is a positive
    scalar, so it factors out of every contraction and cancels in the last quotient.
-/
import Mathlib
import Idealize.ShloMosaic.PureOps.Ideal

open scoped BigOperators

namespace Cert.LibNormalizeCancel

open Idealize.ShloMosaic

section Reindex

variable {M : Type*} [AddCommMonoid M]

/-- The indices `0, …, a * b - 1` split into `a` consecutive blocks of length `b`: the block `s`
    holds `b * s + k` for `k < b`. Summing block by block is summing over all of them. -/
theorem sum_tiles (g : ℕ → M) (a b n : ℕ) (h : n = a * b) :
    ∑ s ∈ Finset.range a, ∑ k : Fin b, g (b * s + k.val) = ∑ j : Fin n, g j.val := by
  subst h
  rw [Fin.sum_univ_eq_sum_range (fun j => g j) (a * b)]
  have hk : ∀ s, ∑ k : Fin b, g (b * s + k.val) = ∑ k ∈ Finset.range b, g (b * s + k) :=
    fun s => Fin.sum_univ_eq_sum_range (fun k => g (b * s + k)) b
  simp only [hk]
  induction a with
  | zero => simp
  | succ a ih =>
    rw [Finset.sum_range_succ, ih, Nat.succ_mul, Finset.sum_range_add, Nat.mul_comm b a]

/-- Terms that vanish from index `n` on contribute nothing: the sum over the first `n'` indices
    is the sum over the first `n`. -/
theorem sum_drop_zeros (g : ℕ → M) (n n' : ℕ) (h : n ≤ n')
    (hz : ∀ j, n ≤ j → j < n' → g j = 0) : ∑ j : Fin n', g j.val = ∑ j : Fin n, g j.val := by
  rw [Fin.sum_univ_eq_sum_range (fun j => g j) n', Fin.sum_univ_eq_sum_range (fun j => g j) n]
  obtain ⟨m, rfl⟩ := Nat.exists_eq_add_of_le h
  rw [Finset.sum_range_add]
  have hzero : ∑ x ∈ Finset.range m, g (n + x) = 0 :=
    Finset.sum_eq_zero (fun x hx => hz _ (Nat.le_add_right _ _)
      (by have := Finset.mem_range.mp hx; omega))
  rw [hzero, add_zero]

end Reindex

section Normalize

/-- The embedding of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of products of embedded reals is the embedded sum of the real products. -/
theorem sum_coe_mul_coe {ι : Type*} (s : Finset ι) (f g : ι → ℝ) :
    ∑ i ∈ s, (f i : EReal) * (g i : EReal) = ((∑ i ∈ s, f i * g i : ℝ) : EReal) := by
  rw [coe_sum]
  exact Finset.sum_congr rfl (fun i _ => (EReal.coe_mul _ _).symm)

/-- A nonempty family of positive reals has a positive sum of squares. -/
theorem sum_sq_pos {J : Type*} [Fintype J] [Nonempty J] (v : J → ℝ) (hpos : ∀ j, 0 < v j) :
    0 < ∑ j, v j * v j :=
  Finset.sum_pos (fun j _ => mul_pos (hpos j) (hpos j)) Finset.univ_nonempty

/-- Scaling every entry of a real vector `x` by a positive real `c` does not change the quotient
    of an entry by the Euclidean norm: `c x_d / √(∑ (c x_d')²) = x_d / √(∑ x_d'²)`, since
    `√(c² T) = c √T` and `c` cancels. When `x` is the zero vector both sides are the quotient
    `0 / 0`, the same value. -/
theorem div_sqrt_scale {D : Type*} [Fintype D] (x : D → ℝ) (c : ℝ) (hc : 0 < c) (d : D) :
    Ideal.div ((c * x d : ℝ) : EReal) (Ideal.sqrt ((∑ d', (c * x d') * (c * x d') : ℝ) : EReal))
      = Ideal.div ((x d : ℝ) : EReal) (Ideal.sqrt ((∑ d', x d' * x d' : ℝ) : EReal)) := by
  have hsc : ∑ d', (c * x d') * (c * x d') = c * c * ∑ d', x d' * x d' := by
    rw [Finset.mul_sum]; exact Finset.sum_congr rfl (fun i _ => by ring)
  rw [hsc]
  generalize hT : ∑ d', x d' * x d' = T
  have hTnn : 0 ≤ T := hT ▸ Finset.sum_nonneg (fun i _ => mul_self_nonneg (x i))
  have hccT : 0 ≤ c * c * T := mul_nonneg (mul_self_nonneg c) hTnn
  rw [Ideal.sqrt_coe, Ideal.sqrt_coe, if_neg (not_lt.mpr hccT), if_neg (not_lt.mpr hTnn)]
  have hs : Real.sqrt (c * c * T) = c * Real.sqrt T := by
    rw [Real.sqrt_mul (mul_self_nonneg c), Real.sqrt_mul_self hc.le]
  rw [hs]
  rcases eq_or_lt_of_le hTnn with h0 | hpos
  · -- the vector is zero: every square in a vanishing sum of squares vanishes
    have hx : x d = 0 := by
      have h := (Finset.sum_eq_zero_iff_of_nonneg (fun i _ => mul_self_nonneg (x i))).mp
        (hT.trans h0.symm) d (Finset.mem_univ d)
      exact mul_self_eq_zero.mp h
    rw [← h0, hx, Real.sqrt_zero, mul_zero]
  · have hsT : 0 < Real.sqrt T := Real.sqrt_pos.mpr hpos
    rw [Ideal.div_coe (mul_pos hc hsT).ne', Ideal.div_coe hsT.ne', ← EReal.coe_mul,
      ← EReal.coe_mul]
    congr 1
    field_simp

/-- A row vector `v` with positive sum of squares is divided by its Euclidean norm `n`, mapped by
    the real matrix `w`, and the image `P` divided by its own Euclidean norm. With
    `R d = ∑ j, v j * w d j` the image of `v` itself, `P d = R d / n` for the positive real `n`, so
    `P d / √(∑ P d'²) = R d / √(∑ R d'²)`; when `R` is the zero vector both sides are `0 / 0`. -/
theorem normalize_cancel {J D : Type*} [Fintype J] [Fintype D] (v : J → ℝ) (w : D → J → ℝ)
    (hv : 0 < ∑ j, v j * v j) (d : D) :
    Ideal.div
        (∑ j, Ideal.div (v j : EReal) (Ideal.sqrt (∑ j, (v j : EReal) * (v j : EReal)))
          * (w d j : EReal))
        (Ideal.sqrt (∑ d',
          (∑ j, Ideal.div (v j : EReal) (Ideal.sqrt (∑ j, (v j : EReal) * (v j : EReal)))
            * (w d' j : EReal))
          * (∑ j, Ideal.div (v j : EReal) (Ideal.sqrt (∑ j, (v j : EReal) * (v j : EReal)))
            * (w d' j : EReal))))
      = Ideal.div (∑ j, (v j : EReal) * (w d j : EReal))
        (Ideal.sqrt (∑ d',
          (∑ j, (v j : EReal) * (w d' j : EReal)) * (∑ j, (v j : EReal) * (w d' j : EReal)))) := by
  have hspos : 0 < Real.sqrt (∑ j, v j * v j) := Real.sqrt_pos.mpr hv
  generalize hs : Real.sqrt (∑ j, v j * v j) = s at hspos
  have hn : Ideal.sqrt (∑ j, (v j : EReal) * (v j : EReal)) = (s : EReal) := by
    rw [sum_coe_mul_coe, Ideal.sqrt_coe, if_neg (not_lt.mpr hv.le), hs]
  have hR : ∀ d', (∑ j, (v j : EReal) * (w d' j : EReal)) = ((∑ j, v j * w d' j : ℝ) : EReal) :=
    fun d' => sum_coe_mul_coe _ _ _
  have hP : ∀ d', (∑ j, Ideal.div (v j : EReal) (s : EReal) * (w d' j : EReal))
      = (((1 / s) * ∑ j, v j * w d' j : ℝ) : EReal) := by
    intro d'
    rw [Finset.mul_sum, coe_sum]
    refine Finset.sum_congr rfl (fun j _ => ?_)
    rw [Ideal.div_coe hspos.ne', ← EReal.coe_mul, ← EReal.coe_mul]
    congr 1
    ring
  rw [hn]
  simp only [hP, hR]
  rw [sum_coe_mul_coe, sum_coe_mul_coe]
  exact div_sqrt_scale (fun d' => ∑ j, v j * w d' j) (1 / s) (by positivity) d

/-- `normalize_cancel` with each of the three sums of squares written from an initial `0`. -/
theorem normalize_cancel_zero_add {J D : Type*} [Fintype J] [Fintype D] (v : J → ℝ)
    (w : D → J → ℝ) (hv : 0 < ∑ j, v j * v j) (d : D) :
    Ideal.div
        (∑ j, Ideal.div (v j : EReal) (Ideal.sqrt (0 + ∑ j, (v j : EReal) * (v j : EReal)))
          * (w d j : EReal))
        (Ideal.sqrt (0 + ∑ d',
          (∑ j, Ideal.div (v j : EReal) (Ideal.sqrt (0 + ∑ j, (v j : EReal) * (v j : EReal)))
            * (w d' j : EReal))
          * (∑ j, Ideal.div (v j : EReal) (Ideal.sqrt (0 + ∑ j, (v j : EReal) * (v j : EReal)))
            * (w d' j : EReal))))
      = Ideal.div (∑ j, (v j : EReal) * (w d j : EReal))
        (Ideal.sqrt (0 + ∑ d',
          (∑ j, (v j : EReal) * (w d' j : EReal)) * (∑ j, (v j : EReal) * (w d' j : EReal)))) := by
  simp only [zero_add]
  exact normalize_cancel v w hv d

/-- `normalize_cancel` with the norm `n`, the image `P` of the normalised vector and the image `R`
    of the vector itself named. -/
theorem normalize_cancel_let {J D : Type*} [Fintype J] [Fintype D] (v : J → ℝ) (w : D → J → ℝ)
    (hv : 0 < ∑ j, v j * v j) (d : D) :
    let n : EReal := Ideal.sqrt (∑ j, (v j : EReal) * (v j : EReal))
    let P : D → EReal := fun d' => ∑ j, Ideal.div (v j : EReal) n * (w d' j : EReal)
    let R : D → EReal := fun d' => ∑ j, (v j : EReal) * (w d' j : EReal)
    Ideal.div (P d) (Ideal.sqrt (∑ d', P d' * P d'))
      = Ideal.div (R d) (Ideal.sqrt (∑ d', R d' * R d')) := by
  intro n P R
  exact normalize_cancel v w hv d

/-- `normalize_cancel` for vectors and matrices of finite extended reals: every entry is the
    embedding of a real, and the sum of squares is positive over the extended reals exactly when
    it is over the reals. -/
theorem normalize_cancel_ereal {J D : Type*} [Fintype J] [Fintype D] (v : J → EReal)
    (w : D → J → EReal) (hvf : ∀ j, v j ≠ ⊤ ∧ v j ≠ ⊥) (hwf : ∀ d' j, w d' j ≠ ⊤ ∧ w d' j ≠ ⊥)
    (hv : 0 < ∑ j, v j * v j) (d : D) :
    Ideal.div
        (∑ j, Ideal.div (v j) (Ideal.sqrt (∑ j, v j * v j)) * w d j)
        (Ideal.sqrt (∑ d',
          (∑ j, Ideal.div (v j) (Ideal.sqrt (∑ j, v j * v j)) * w d' j)
          * (∑ j, Ideal.div (v j) (Ideal.sqrt (∑ j, v j * v j)) * w d' j)))
      = Ideal.div (∑ j, v j * w d j)
        (Ideal.sqrt (∑ d', (∑ j, v j * w d' j) * (∑ j, v j * w d' j))) := by
  have hv' : ∀ j, v j = ((v j).toReal : EReal) :=
    fun j => (EReal.coe_toReal (hvf j).1 (hvf j).2).symm
  have hw' : ∀ d' j, w d' j = ((w d' j).toReal : EReal) :=
    fun d' j => (EReal.coe_toReal (hwf d' j).1 (hwf d' j).2).symm
  have hpos : 0 < ∑ j, (v j).toReal * (v j).toReal := by
    have h := hv
    simp only [fun j => congrArg (fun t => t * t) (hv' j)] at h
    rw [sum_coe_mul_coe] at h
    exact_mod_cast h
  have key := normalize_cancel (fun j => (v j).toReal) (fun d' j => (w d' j).toReal) hpos d
  simp only [← hv', ← hw'] at key
  exact key

end Normalize

end Cert.LibNormalizeCancel
-- ==== Proof.LibColumn.lean ====
/-
  A matrix's row sums kept as a column, read at an index.

  `jnp.sum(x, axis=1, keepdims=True)` of an `[a, b]` matrix lowers to a lane reduction into `[a]`, a reshape to the
  column `[a, 1]`, and, where the column meets an `[a, c]` matrix, a broadcast along the second axis. Read at an
  index each step only moves coordinates:
    the reduction at `r`       is  Σ_k x[r, k],
    the column at `(r, u)`     is  the vector at `r`      (`u` ranges over the one coordinate of the unit axis),
    the broadcast at `(r, j)`  is  the column at `(r, 0)`.
  The statements are over arbitrary extents and any element type; the sum is over the extended reals.
-/
import Idealize.ShloMosaic.PureOps.Ideal
import Idealize.ShloMosaic.PureOps.Ideal.Laws
import Idealize.ShloMosaic.Lib.Pipeline.Value
import Idealize.ShloMosaic.Lib.ValueIdx

noncomputable section

namespace Idealize.ShloMosaic.ColumnIdx

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its second axis reads, at `r`, the sum of row `r`: the zero accumulator adds
    nothing, and the index with `k` put back on the reduced axis is `(r, k)`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) :=
  (Ideal.multiReduction_add_single src _ h hφ hacc (ix1 r)).trans
    (Finset.sum_congr rfl fun k _ => congrArg src (funext fun c => Fin.ext (by
      match c with
      | ⟨0, _⟩ => rfl
      | ⟨1, _⟩ => rfl)))

end Idealize.ShloMosaic.ColumnIdx

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.KPay.lean ====
/-
  The kernel body's three stored values, read at an index (at the ideal values).

  At a grid point the body holds a [1024, 768] block `x0` of the padded histogram, the [1024, 1] block `x1` of the
  length normalisation of the same rows, a [768, 768] block `x2` of the padded weight matrix (outputs × vocabulary
  tile) and the [1024, 768] accumulator `acc`. It stores:
    * zeros, at the first vocabulary tile;
    * `acc + S · x2ᵀ`, where `S[p, k] = vEntry (x0[p, k]) (x1[p, 0])` is the score block — entry `(p, q)` gains
      `Σ_k S[p, k] · x2[q, k]`;
    * at the last vocabulary tile, every row of the accumulator divided by its Euclidean norm.
-/
import proofs.«100497_j27590869909670_1_alg».proof.Proof.Gen.KernelIdeal.Skeleton
import proofs.«100497_j27590869909670_1_alg».proof.Proof.Score
import proofs.«100497_j27590869909670_1_alg».proof.Proof.LibColumn
import proofs.«100497_j27590869909670_1_alg».proof.Proof.LibMatmulT
import Idealize.ShloMosaic.Lib.ValueIdx
import Idealize.ShloMosaic.Lib.Pipeline.Value
import Idealize.ShloMosaic.PureOps.Ideal.Laws

noncomputable section

namespace Cert.Bm25

open Idealize.ShloMosaic Idealize.ShloMosaic.ValueIdx Cert.KernelIdeal Cert.KernelIdeal.Gen

/-- The score block as the body computes it from the histogram block and the length-normalisation block. -/
def scoreBlk (x0 : FVec Ideal S1024x768 .f32) (x1 : FVec Ideal S1024x1 .f32) : FVec Ideal S1024x768 .bf16 :=
  truncf .bf16
    (addf
      (select (cmpf .ogt x0 (broadcast S1024x768 (Scalar.ofBits .f32 0x00000000#32)))
        (divf (mulf x0 (broadcast S1024x768 (Scalar.ofBits .f32 0x400CCCCD#32)))
          (addf x0 (broadcastTo S1024x768 (mulf (broadcast S1024x1 (Scalar.ofBits .f32 0x3F99999A#32)) x1)
            broadcasts_S1024x1_S1024x768)))
        (broadcast S1024x768 (Scalar.ofBits .f32 0x00000000#32)))
      (broadcast S1024x768 (Scalar.ofBits .f32 0x2EDBE6FF#32)))
    bitsLt_bf16_f32

/-- Entry `(p, k)` of the score block is the score of the count at `(p, k)` under row `p`'s length normalisation. -/
theorem scoreBlk_apply (x0 : FVec Ideal S1024x768 .f32) (x1 : FVec Ideal S1024x1 .f32) (p : Fin 1024) (k : Fin 768) :
    scoreBlk x0 x1 (ix2 p k) = vEntry (x0 (ix2 p k)) (x1 (ix2 p (0 : Fin 1))) := by
  have hb : broadcastTo S1024x768 (mulf (broadcast S1024x1 (Scalar.ofBits (F := Ideal) .f32 0x3F99999A#32)) x1)
      broadcasts_S1024x1_S1024x768 (ix2 p k)
      = mulf (broadcast S1024x1 (Scalar.ofBits (F := Ideal) .f32 0x3F99999A#32)) x1 (ix2 p (0 : Fin 1)) :=
    ColumnIdx.broadcastTo_a1_ab_apply _ _ p k
  unfold scoreBlk vEntry
  show FloatOps.addf (Scalar.select (FloatOps.cmpf .ogt (x0 (ix2 p k)) _)
      (FloatOps.divf (FloatOps.mulf (x0 (ix2 p k)) _) (FloatOps.addf (x0 (ix2 p k))
        (broadcastTo S1024x768 (mulf (broadcast S1024x1 (Scalar.ofBits (F := Ideal) .f32 0x3F99999A#32)) x1)
          broadcasts_S1024x1_S1024x768 (ix2 p k)))) _) _ = _
  rw [hb]
  rfl

/-- The second stored value is the accumulator plus the score block times the transposed weight block. -/
theorem pay2_eq (x0 : Vec Ideal S1024x768 .f32) (x1 : Vec Ideal S1024x1 .f32) (x2 : Vec Ideal S768x768 .bf16)
    (acc : Vec Ideal S1024x768 .f32) :
    k0_pay2 (F := Ideal) x0 x1 x2 acc
      = addf acc (matmul (φ₁ := .bf16) (φ₂ := .bf16) dot_S1024x768_S768x768_S1024x768_1_1_0_0_n_n none (scoreBlk x0 x1) x2
          (constant S1024x768 .f32 0x00000000#32)) := by
  unfold k0_pay2 scoreBlk
  simp only [shapeCast_self]

/-- Entry `(p, q)` of the second stored value: the accumulator's entry plus `Σ_k score[p, k] · x2[q, k]`. -/
theorem pay2_apply (x0 : Vec Ideal S1024x768 .f32) (x1 : Vec Ideal S1024x1 .f32) (x2 : Vec Ideal S768x768 .bf16)
    (acc : Vec Ideal S1024x768 .f32) (p : Fin 1024) (q : Fin 768) :
    k0_pay2 (F := Ideal) x0 x1 x2 acc (ix2 p q)
      = acc (ix2 p q) + ∑ k : Fin 768, vEntry (x0 (ix2 p k)) (x1 (ix2 p (0 : Fin 1))) * x2 (ix2 q k) := by
  rw [pay2_eq]
  refine congrArg (acc (ix2 p q) + ·) ?_
  refine (MatmulT.matmul_zero_apply dot_S1024x768_S768x768_S1024x768_1_1_0_0_n_n.wf none (scoreBlk x0 x1) x2 p q).trans ?_
  exact Finset.sum_congr rfl fun k _ => by rw [scoreBlk_apply]

/-- The first stored value is zero everywhere. -/
theorem pay1_apply (y : S1024x768.Idx) : k0_pay1 (F := Ideal) y = 0 := by
  show Ideal.ofBits .f32 0x00000000#32 = 0
  exact Ideal.ofBits_zero_f32

/-- Entry `(p, q)` of the third stored value: the accumulator's entry divided by the Euclidean norm of its row. -/
theorem pay3_apply (acc : Vec Ideal S1024x768 .f32) (p : Fin 1024) (q : Fin 768) :
    k0_pay3 (F := Ideal) acc (ix2 p q)
      = Ideal.div (acc (ix2 p q)) (Ideal.sqrt (∑ d : Fin 768, acc (ix2 p d) * acc (ix2 p d))) := by
  unfold k0_pay3
  simp only [shapeCast_self]
  show Ideal.div (acc (ix2 p q)) (broadcastTo S1024x768 _ broadcasts_S1024x1_S1024x768 (ix2 p q)) = _
  rw [ColumnIdx.broadcastTo_a1_ab_apply]
  show Ideal.div (acc (ix2 p q)) (Ideal.sqrt (shapeCast S1024x1 _ shapeCasts_S1024_S1024x1 (ix2 p (0 : Fin 1)))) = _
  rw [ColumnIdx.shapeCast_a_a1_apply]
  exact congrArg (fun z => Ideal.div (acc (ix2 p q)) (Ideal.sqrt z)) (ColumnIdx.rowSum_apply (mulf acc acc) _ _ _ p)

end Cert.Bm25

end
-- ==== Proof.KFold.lean ====
/-
  What the kernel's output buffer holds when a run of 40 vocabulary tiles ends, entry by entry.

  Over the 40 grid points of one batch tile the buffer is reset to the first tile's product, each later point adds its
  own tile's product `Σ_k score[p, k] · w[q, k]` (`tileTerm`), and the last point also divides every row by its
  Euclidean norm. So the buffer ends holding, at `(p, q)`, `raw[p, q] / √(Σ_d raw[p, d]²)` where `raw` is the sum of
  the 40 tile products (from zero).
-/
import proofs.«100497_j27590869909670_1_alg».proof.Proof.Gen.KernelIdeal.Value
import proofs.«100497_j27590869909670_1_alg».proof.Proof.KPay

noncomputable section

namespace Cert.Bm25

open Idealize.ShloMosaic Idealize.ShloMosaic.ValueIdx Idealize.SL.Sem Cert.KernelIdeal Cert.KernelIdeal.Gen
  Cert.KernelIdeal.Value

variable (m : (ℓ : Loc nD τ sig) → Buf (Elt Ideal) ℓ) (c : Dev nD)

/-- The product of grid point `n`'s score block and transposed weight block, at `(p, q)` (0 past the grid). -/
def tileTerm (n : ℕ) (p : Fin 1024) (q : Fin 768) : EReal :=
  if h : n < cfg0.N then
    ∑ k : Fin 768, vEntry (iblk m c 0 ⟨n, h⟩ (ix2 p k)) (iblk m c 1 ⟨n, h⟩ (ix2 p (0 : Fin 1))) * iblk m c 2 ⟨n, h⟩ (ix2 q k)
  else 0

/-- The same as a function of the block index. -/
def tileAt (n : ℕ) (y : S1024x768.Idx) : EReal := tileTerm m c n (y 0) (y 1)

theorem tileAt_ix2 (n : ℕ) (p : Fin 1024) (q : Fin 768) : tileAt m c n (ix2 p q) = tileTerm m c n p q := rfl

/-- The sum of the 40 tile products of batch tile `r`, from zero. -/
def rawAt (r : ℕ) (p : Fin 1024) (q : Fin 768) : EReal := 0 + ∑ s ∈ Finset.range 40, tileTerm m c (40 * r + s) p q

/-- The second stored value at a point of the grid: the accumulator's entry plus the point's tile product. -/
theorem pay2_tile (n : ℕ) (h : n < cfg0.N) (acc : Vec Ideal S1024x768 .f32) (i : S1024x768.Idx) :
    k0_pay2 (F := Ideal) (iblk m c 0 ⟨n, h⟩) (iblk m c 1 ⟨n, h⟩) (iblk m c 2 ⟨n, h⟩) acc i = acc i + tileAt m c n i := by
  obtain ⟨p, q, rfl⟩ : ∃ (p : Fin 1024) (q : Fin 768), i = ix2 p q := ⟨i 0, i 1, eq_ix2 i⟩
  refine (pay2_apply (iblk m c 0 ⟨n, h⟩) (iblk m c 1 ⟨n, h⟩) (iblk m c 2 ⟨n, h⟩) acc p q).trans ?_
  rw [tileAt_ix2]
  unfold tileTerm
  rw [dif_pos h]

/-- After the first 39 points of batch tile `r` the buffer holds the sum of their tile products. -/
theorem fold38 (r : ℕ) (h : 40 * r + 38 < cfg0.N) (i : S1024x768.Idx) :
    Pipeline.accAt (reset3 m c) (step3 m c) (40 * r) 38 h i
      = 0 + ∑ s ∈ Finset.range (38 + 1), tileAt m c (40 * r + s) i := by
  refine Pipeline.accAt_add_apply (reset3 m c) (step3 m c) (fun _ => (0 : EReal)) (tileAt m c) (40 * r) 38 ?_ ?_ 38 (le_refl _) h i
  · intro hb y
    unfold reset3
    refine (pay2_tile m c (40 * r) hb _ y).trans ?_
    rw [pay1_apply]
  · intro n hn acc y h1 h2
    unfold step3
    rw [if_pos ⟨by omega, by omega⟩]
    exact pay2_tile m c n hn acc y

/-- When the run of batch tile `r` ends the buffer holds every row of the raw sums divided by its Euclidean norm. -/
theorem fold_apply (r : ℕ) (h : 40 * r + 39 < cfg0.N) (p : Fin 1024) (q : Fin 768) :
    Pipeline.accAt (reset3 m c) (step3 m c) (40 * r) 39 h (ix2 p q)
      = Ideal.div (rawAt m c r p q) (Ideal.sqrt (∑ d : Fin 768, rawAt m c r p d * rawAt m c r p d)) := by
  have h38 : 40 * r + 38 < cfg0.N := by omega
  have hraw : ∀ d : Fin 768,
      k0_pay2 (F := Ideal) (iblk m c 0 ⟨40 * r + 39, h⟩) (iblk m c 1 ⟨40 * r + 39, h⟩) (iblk m c 2 ⟨40 * r + 39, h⟩)
        (Pipeline.accAt (reset3 m c) (step3 m c) (40 * r) 38 h38) (ix2 p d) = rawAt m c r p d := by
    intro d
    rw [pay2_tile, fold38, tileAt_ix2]
    unfold rawAt
    rw [Finset.sum_range_succ _ 39, add_assoc]
    rfl
  have hstep : step3 m c (40 * r + 39) h (Pipeline.accAt (reset3 m c) (step3 m c) (40 * r) 38 h38)
      = k0_pay3 (F := Ideal) (k0_pay2 (F := Ideal) (iblk m c 0 ⟨40 * r + 39, h⟩) (iblk m c 1 ⟨40 * r + 39, h⟩)
          (iblk m c 2 ⟨40 * r + 39, h⟩) (Pipeline.accAt (reset3 m c) (step3 m c) (40 * r) 38 h38)) := by
    unfold step3
    rw [if_neg (by omega), if_pos ⟨by omega, by omega⟩]
  show step3 m c (40 * r + 39) h (Pipeline.accAt (reset3 m c) (step3 m c) (40 * r) 38 h38) (ix2 p q) = _
  rw [hstep]
  refine (pay3_apply _ p q).trans ?_
  exact congrArg₂ (fun x z => Ideal.div x (Ideal.sqrt z)) (hraw q)
    (Finset.sum_congr rfl fun d _ => congrArg₂ (· * ·) (hraw d) (hraw d))

end Cert.Bm25

end
-- ==== Proof.KBlocks.lean ====
/-
  The input blocks of a grid point, read off the staged arrays.

  The grid is 2 batch tiles by 40 vocabulary tiles, point `t` being batch tile `t / 40` and vocabulary tile `t % 40`.
  At point `t` the histogram block holds rows `1024·(t/40) …` and columns `768·(t%40) …` of the padded histogram, the
  length-normalisation block the same rows of the column, and the weight block all 768 rows and columns
  `768·(t%40) …` of the padded weight matrix.
-/
import proofs.«100497_j27590869909670_1_alg».proof.Proof.Gen.KernelIdeal.Frame.Runs
import Idealize.ShloMosaic.Lib.ValueIdx

noncomputable section

namespace Cert.Bm25

open Idealize.ShloMosaic Idealize.ShloMosaic.ValueIdx Idealize.SL.Sem Cert.KernelIdeal Cert.KernelIdeal.Gen

variable {F : FTy → Type} [FloatOps F]
variable (m : (ℓ : Loc nD τ sig) → Buf (Elt F) ℓ)

/-- The histogram window's block index at point `t`: (batch tile, vocabulary tile). -/
theorem idxMap0 : ∀ t : Fin cfg0.N, win0_0.index t (0 : Fin 2) = t.val / 40 ∧ win0_0.index t (1 : Fin 2) = t.val % 40 :=
  (by decide +kernel : ∀ t : Fin grid0.N, win0_0.index t (0 : Fin 2) = t.val / 40 ∧ win0_0.index t (1 : Fin 2) = t.val % 40)

/-- The length-normalisation window's block index at point `t`: (batch tile, 0). -/
theorem idxMap1 : ∀ t : Fin cfg0.N, win0_1.index t (0 : Fin 2) = t.val / 40 ∧ win0_1.index t (1 : Fin 2) = 0 :=
  (by decide +kernel : ∀ t : Fin grid0.N, win0_1.index t (0 : Fin 2) = t.val / 40 ∧ win0_1.index t (1 : Fin 2) = 0)

/-- The weight window's block index at point `t`: (0, vocabulary tile). -/
theorem idxMap2 : ∀ t : Fin cfg0.N, win0_2.index t (0 : Fin 2) = 0 ∧ win0_2.index t (1 : Fin 2) = t.val % 40 :=
  (by decide +kernel : ∀ t : Fin grid0.N, win0_2.index t (0 : Fin 2) = 0 ∧ win0_2.index t (1 : Fin 2) = t.val % 40)

/-- Entry `(p, k)` of the histogram block at point `t` is the padded histogram at row `1024·(t/40) + p`, column
    `768·(t%40) + k`. -/
theorem iblk0_apply (c : Dev nD) (t : Fin cfg0.N) (p : Fin 1024) (k : Fin 768) (i : S2048x30720.Idx)
    (h0 : (i 0).val = 1024 * (t.val / 40) + p.val) (h1 : (i 1).val = 768 * (t.val % 40) + k.val) :
    iblk m c 0 t (ix2 p k) = V m c main_v40 i := by
  show V m c main_v40 (((cfg0.win 0).blk t).view.emb (ix2 p k)) = V m c main_v40 i
  obtain ⟨e0, e1⟩ := idxMap0 t
  refine congrArg (V m c main_v40) (funext fun a => Fin.ext ?_)
  match a with
  | ⟨0, _⟩ => show win0_0.index t (0 : Fin 2) * 1024 + 1 * p.val = (i 0).val; omega
  | ⟨1, _⟩ => show win0_0.index t (1 : Fin 2) * 768 + 1 * k.val = (i 1).val; omega

/-- Entry `(p, 0)` of the length-normalisation block at point `t` is the column at row `1024·(t/40) + p`. -/
theorem iblk1_apply (c : Dev nD) (t : Fin cfg0.N) (p : Fin 1024) (u : Fin 1) (i : S2048x1.Idx)
    (h0 : (i 0).val = 1024 * (t.val / 40) + p.val) :
    iblk m c 1 t (ix2 p u) = V m c main_v39 i := by
  show V m c main_v39 (((cfg0.win 1).blk t).view.emb (ix2 p u)) = V m c main_v39 i
  obtain ⟨e0, e1⟩ := idxMap1 t
  have hi1 : (i 1).val < 1 := (i 1).isLt
  have hu : u.val < 1 := u.isLt
  refine congrArg (V m c main_v39) (funext fun a => Fin.ext ?_)
  match a with
  | ⟨0, _⟩ => show win0_1.index t (0 : Fin 2) * 1024 + 1 * p.val = (i 0).val; omega
  | ⟨1, _⟩ => show win0_1.index t (1 : Fin 2) * 1 + 1 * u.val = (i 1).val; omega

/-- Entry `(q, k)` of the weight block at point `t` is the padded weight matrix at row `q`, column `768·(t%40) + k`. -/
theorem iblk2_apply (c : Dev nD) (t : Fin cfg0.N) (q : Fin 768) (k : Fin 768) (i : S768x30720.Idx)
    (h0 : (i 0).val = q.val) (h1 : (i 1).val = 768 * (t.val % 40) + k.val) :
    iblk m c 2 t (ix2 q k) = V m c main_v42 i := by
  show V m c main_v42 (((cfg0.win 2).blk t).view.emb (ix2 q k)) = V m c main_v42 i
  obtain ⟨e0, e1⟩ := idxMap2 t
  refine congrArg (V m c main_v42) (funext fun a => Fin.ext ?_)
  match a with
  | ⟨0, _⟩ => show win0_2.index t (0 : Fin 2) * 768 + 1 * q.val = (i 0).val; omega
  | ⟨1, _⟩ => show win0_2.index t (1 : Fin 2) * 768 + 1 * k.val = (i 1).val; omega

end Cert.Bm25

end
-- ==== Proof.KHost.lean ====
/-
  What the kernel's region finds in the three arrays it stages, as functions of the argument arrays.

  Before the region the kernel's program runs the same host stages as the reference (Stages.lean) and then pads: the
  histogram `tf` gets 720 more zero columns (vocabulary 30000 → 30720 = 40 tiles of 768), the weight matrix likewise
  and is then rounded to bfloat16 (the identity at the ideal values); the length normalisation column is staged as is.
-/
import proofs.«100497_j27590869909670_1_alg».proof.Proof.Gen.KernelIdeal.Frame.Runs
import proofs.«100497_j27590869909670_1_alg».proof.Proof.Gen.ReferenceIdeal
import proofs.«100497_j27590869909670_1_alg».proof.Proof.Stages
import Idealize.ShloMosaic.Lib.StableHlo.Run

noncomputable section

namespace Cert.Bm25

open Idealize.ShloMosaic Idealize.ShloMosaic.StableHlo Idealize.SL.Sem Cert.KernelIdeal Cert.KernelIdeal.Gen

variable {F : FTy → Type} [FloatOps F]
variable (m : (ℓ : Loc nD τ sig) → Buf (Elt F) ℓ)

/-- The kernel program's three argument arrays on core `c`: token ids, attention mask, weight matrix. -/
abbrev kIds (c : Dev nD) : IVec S2048x512 32 := launchContents m c (Proc.tc.devRef main_arg0)
abbrev kMask (c : Dev nD) : IVec S2048x512 32 := launchContents m c (Proc.tc.devRef main_arg1)
abbrev kW (c : Dev nD) : FVec F S768x30000 .f32 := launchContents m c (Proc.tc.devRef main_arg2)

/-- The padding value both pads use: the integer 0 converted to a float. -/
abbrev padZero : FVec F S_ .f32 := sitofp .f32 (constantI S_ 32 0#32)

set_option maxHeartbeats 8000000 in
/-- The first staged array is the histogram with 720 padding columns appended. -/
theorem V_tfPad (c : Dev nD) :
    (V m c main_v40 : FVec F S2048x30720 .f32)
      = pad S2048x30720 ![0, 0] ![0, 720] ![0, 0] (tf (F := F) (kIds m c) (kMask m c)) (padZero (F := F))
          pads_S2048x30000_S2048x30720_000_07200 h_S_ := by
  dsimp only [Gen.V]
  simp only [hostOps0, hostOps0_1, hostOps0_2, hostOps0_3, hostOps0_4, hostOps0_5, hostOps0_6, List.flatten_cons,
    List.flatten_nil, List.append_nil, List.cons_append, List.nil_append]
  after_results_simp
  all_goals rfl

set_option maxHeartbeats 8000000 in
/-- The second staged array is the length-normalisation column. -/
theorem V_lenNorm (c : Dev nD) :
    (V m c main_v39 : FVec F S2048x1 .f32) = lenNorm (F := F) (kIds m c) (kMask m c) := by
  dsimp only [Gen.V]
  simp only [hostOps0, hostOps0_1, hostOps0_2, hostOps0_3, hostOps0_4, hostOps0_5, hostOps0_6, List.flatten_cons,
    List.flatten_nil, List.append_nil, List.cons_append, List.nil_append]
  after_results_simp
  all_goals rfl

/-- The third staged array is the weight matrix with 720 padding columns appended, in bfloat16. -/
theorem V_wPad (c : Dev nD) :
    (V m c main_v42 : FVec F S768x30720 .bf16)
      = truncf .bf16 (pad S768x30720 ![0, 0] ![0, 720] ![0, 0] (kW m c) (padZero (F := F))
          pads_S768x30000_S768x30720_000_07200 h_S_) bitsLt_bf16_f32 := by
  dsimp only [Gen.V]
  simp only [hostOps0, hostOps0_1, hostOps0_2, hostOps0_3, hostOps0_4, hostOps0_5, hostOps0_6, List.flatten_cons,
    List.flatten_nil, List.append_nil, List.cons_append, List.nil_append]
  after_results_simp
  all_goals rfl

end Cert.Bm25

end
-- ==== Proof.LibPadCols.lean ====
/-
  Padding a matrix on the right of its second axis, read at an index.

  A matrix of `A` rows and `B` columns is padded to `B'` columns: nothing is added before
  either axis, nothing after the first axis, `hi` columns after the second, and nothing between
  elements. The result at row `a` and column `j` is the matrix's element at `(a, j)` when
  `j < B`, and the padding value otherwise.
-/
import Idealize.ShloMosaic.PureOps
import Idealize.ShloMosaic.Lib.ValueIdx

namespace Idealize.ShloMosaic.PadCols

open Idealize.ShloMosaic Idealize.ShloMosaic.ValueIdx

/-- The padded matrix at `(a, j)`: on the first axis every coordinate is an old one
    (`0 ≤ a`, `a % 1 = 0`, `a / 1 = a < A`); on the second axis `j` is an old coordinate exactly
    when `j / 1 = j < B`. -/
theorem pad_cols_apply {α : Type} {A B B' hi : ℕ} (x : (⟨2, ![A, B]⟩ : Shape).Idx → α) {u : Shape}
    (v : u.Idx → α)
    (h : (⟨2, ![A, B]⟩ : Shape).Pads (![0, 0] : Fin 2 → ℕ) ![0, hi] ![0, 0] ⟨2, ![A, B']⟩)
    (hu : 0 < u.numel) (a : Fin A) (j : Fin B') :
    pad ⟨2, ![A, B']⟩ ![0, 0] ![0, hi] ![0, 0] x v h hu (ix2 a j)
      = if hj : j.val < B then x (ix2 a ⟨j.val, hj⟩) else v (Shape.Idx.first hu) := by
  unfold pad
  by_cases hj : j.val < B
  · rw [dif_pos hj]
    have hin : ∀ a' : Fin (⟨2, ![A, B]⟩ : Shape).rank,
        (![0, 0] : Fin 2 → ℕ) a' ≤ ((ix2 a j) (a'.cast h.1)).val
        ∧ (((ix2 a j) (a'.cast h.1)).val - (![0, 0] : Fin 2 → ℕ) a') % ((![0, 0] : Fin 2 → ℕ) a' + 1) = 0
        ∧ (((ix2 a j) (a'.cast h.1)).val - (![0, 0] : Fin 2 → ℕ) a') / ((![0, 0] : Fin 2 → ℕ) a' + 1)
            < (⟨2, ![A, B]⟩ : Shape).size a' := by
      intro a'
      match a' with
      | ⟨0, _⟩ =>
        show 0 ≤ a.val ∧ (a.val - 0) % (0 + 1) = 0 ∧ (a.val - 0) / (0 + 1) < A
        refine ⟨Nat.zero_le _, by omega, by have := a.isLt; omega⟩
      | ⟨1, _⟩ =>
        show 0 ≤ j.val ∧ (j.val - 0) % (0 + 1) = 0 ∧ (j.val - 0) / (0 + 1) < B
        refine ⟨Nat.zero_le _, by omega, by omega⟩
    rw [dif_pos hin]
    congr 1
    funext a'
    match a' with
    | ⟨0, _⟩ => exact Fin.ext (show (a.val - 0) / (0 + 1) = a.val by omega)
    | ⟨1, _⟩ => exact Fin.ext (show (j.val - 0) / (0 + 1) = j.val by omega)
  · rw [dif_neg hj, dif_neg]
    intro hin
    have h1 : (j.val - 0) / (0 + 1) < B := (hin ⟨1, Nat.one_lt_two⟩).2.2
    omega

/-- Inside the old width the padded matrix is the matrix. -/
theorem pad_cols_apply_lt {α : Type} {A B B' hi : ℕ} (x : (⟨2, ![A, B]⟩ : Shape).Idx → α)
    {u : Shape} (v : u.Idx → α)
    (h : (⟨2, ![A, B]⟩ : Shape).Pads (![0, 0] : Fin 2 → ℕ) ![0, hi] ![0, 0] ⟨2, ![A, B']⟩)
    (hu : 0 < u.numel) (a : Fin A) (j : Fin B') (hj : j.val < B) :
    pad ⟨2, ![A, B']⟩ ![0, 0] ![0, hi] ![0, 0] x v h hu (ix2 a j) = x (ix2 a ⟨j.val, hj⟩) := by
  rw [pad_cols_apply, dif_pos hj]

/-- From the old width on the padded matrix is the padding value. -/
theorem pad_cols_apply_ge {α : Type} {A B B' hi : ℕ} (x : (⟨2, ![A, B]⟩ : Shape).Idx → α)
    {u : Shape} (v : u.Idx → α)
    (h : (⟨2, ![A, B]⟩ : Shape).Pads (![0, 0] : Fin 2 → ℕ) ![0, hi] ![0, 0] ⟨2, ![A, B']⟩)
    (hu : 0 < u.numel) (a : Fin A) (j : Fin B') (hj : B ≤ j.val) :
    pad ⟨2, ![A, B']⟩ ![0, 0] ![0, hi] ![0, 0] x v h hu (ix2 a j) = v (Shape.Idx.first hu) := by
  rw [pad_cols_apply, dif_neg (Nat.not_lt.mpr hj)]

end Idealize.ShloMosaic.PadCols
-- ==== Proof.KArrays.lean ====
/-
  The staged arrays read at an index (at the ideal values): on the 30000 true vocabulary columns the padded histogram
  is the histogram and the padded weight matrix the weight matrix; on the 720 padding columns the weight matrix is 0.
-/
import proofs.«100497_j27590869909670_1_alg».proof.Proof.KHost
import proofs.«100497_j27590869909670_1_alg».proof.Proof.LibPadCols
import Idealize.ShloMosaic.Lib.ValueIdx

noncomputable section

namespace Cert.Bm25

open Idealize.ShloMosaic Idealize.ShloMosaic.ValueIdx Idealize.SL.Sem Cert.KernelIdeal Cert.KernelIdeal.Gen

variable (m : (ℓ : Loc nD τ sig) → Buf (Elt Ideal) ℓ) (c : Dev nD)

/-- The padding value is 0. -/
theorem padZero_apply (i : S_.Idx) : padZero (F := Ideal) i = 0 := by
  show (((0#32 : BitVec 32).toInt : ℝ) : EReal) = 0
  norm_num

/-- On a true vocabulary column the padded histogram is the histogram. -/
theorem tfPad_apply_lt (b : Fin 2048) (j : Fin 30720) (hj : j.val < 30000) :
    V m c main_v40 (ix2 b j) = tf (F := Ideal) (kIds m c) (kMask m c) (ix2 b ⟨j.val, hj⟩) := by
  rw [V_tfPad]
  exact PadCols.pad_cols_apply_lt _ _ _ _ b j hj

/-- The padded weight matrix: the weight matrix on a true vocabulary column, 0 on a padding column. -/
theorem wPad_apply (d : Fin 768) (j : Fin 30720) :
    V m c main_v42 (ix2 d j) = if hj : j.val < 30000 then kW m c (ix2 d ⟨j.val, hj⟩) else 0 := by
  rw [V_wPad]
  show pad S768x30720 ![0, 0] ![0, 720] ![0, 0] (kW m c) (padZero (F := Ideal))
    pads_S768x30000_S768x30720_000_07200 h_S_ (ix2 d j) = _
  rw [PadCols.pad_cols_apply]
  split
  · rfl
  · exact padZero_apply _

end Cert.Bm25

end
-- ==== Proof.LibTiles.lean ====
/-
  A contraction over a padded axis, done tile by tile.

  An axis of `30000` columns is padded with `720` columns to `30720 = 40 * 768` and cut into
  `40` tiles of `768` columns. When the second factor vanishes on the padding columns, the sum
  over the tiles of the sums of products within each tile is the sum of products over the
  `30000` true columns: the tiles are consecutive blocks of indices, and the padding columns
  contribute products with a zero factor.
-/
import Mathlib
import Idealize.ShloMosaic.PureOps
import Idealize.ShloMosaic.Lib.ValueIdx
import proofs.«100497_j27590869909670_1_alg».proof.Proof.LibNormalizeCancel

noncomputable section

open scoped BigOperators

namespace Idealize.ShloMosaic.Tiles

open Idealize.ShloMosaic Idealize.ShloMosaic.ValueIdx

/-- A matrix read at a pair of natural numbers: its element when both are coordinates, and `0`
    outside. -/
def atNat {A B : ℕ} (x : (⟨2, ![A, B]⟩ : Shape).Idx → EReal) (a j : ℕ) : EReal :=
  if h : a < A ∧ j < B then x (ix2 ⟨a, h.1⟩ ⟨j, h.2⟩) else 0

/-- At a pair of coordinates the reading is the matrix's element. -/
theorem atNat_eq {A B : ℕ} (x : (⟨2, ![A, B]⟩ : Shape).Idx → EReal) (a : Fin A) (j : Fin B) :
    atNat x a.val j.val = x (ix2 a j) := by
  unfold atNat
  rw [dif_pos ⟨a.isLt, j.isLt⟩]

/-- The padded row `T` of the first factor agrees with the row `tf` on the `30000` true columns, and
    the padded second factor `Wp` is `W` there and `0` on the `720` padding columns. The
    `40` tiles of `768` consecutive columns exhaust the `30720` padded columns; the products on
    the padding columns vanish with their second factor; on the true columns the product is that of
    `tf` (through `f`) and `W`. -/
theorem tiles_sum {A D : ℕ} (f : EReal → EReal) (T : (⟨2, ![A, 30720]⟩ : Shape).Idx → EReal)
    (Wp : (⟨2, ![D, 30720]⟩ : Shape).Idx → EReal)
    (tf : (⟨2, ![A, 30000]⟩ : Shape).Idx → EReal) (W : (⟨2, ![D, 30000]⟩ : Shape).Idx → EReal)
    (hT : ∀ (a : Fin A) (j : Fin 30720) (hj : j.val < 30000),
      T (ix2 a j) = tf (ix2 a ⟨j.val, hj⟩))
    (hW : ∀ (d : Fin D) (j : Fin 30720),
      Wp (ix2 d j) = if hj : j.val < 30000 then W (ix2 d ⟨j.val, hj⟩) else 0)
    (a : Fin A) (d : Fin D) :
    ∑ s ∈ Finset.range 40, ∑ k : Fin 768,
        f (atNat T a.val (768 * s + k.val)) * atNat Wp d.val (768 * s + k.val)
      = ∑ j : Fin 30000, f (tf (ix2 a j)) * W (ix2 d j) := by
  -- the padding columns: the second factor is zero there
  have hz : ∀ j, 30000 ≤ j → j < 30720 →
      (fun j => f (atNat T a.val j) * atNat Wp d.val j) j = 0 := by
    intro j h1 h2
    have hWp : atNat Wp d.val j = 0 :=
      (atNat_eq Wp d ⟨j, h2⟩).trans ((hW d ⟨j, h2⟩).trans
        (dif_neg (show ¬ ((⟨j, h2⟩ : Fin 30720).val < 30000) from Nat.not_lt.mpr h1)))
    show f (atNat T a.val j) * atNat Wp d.val j = 0
    rw [hWp, mul_zero]
  have htiles := Cert.LibNormalizeCancel.sum_tiles
    (fun j => f (atNat T a.val j) * atNat Wp d.val j) 40 768 30720 (by norm_num)
  have hdrop := Cert.LibNormalizeCancel.sum_drop_zeros
    (fun j => f (atNat T a.val j) * atNat Wp d.val j) 30000 30720 (by norm_num) hz
  refine htiles.trans (hdrop.trans ?_)
  -- the true columns, term by term
  refine Finset.sum_congr rfl (fun j _ => ?_)
  have hj : j.val < 30720 := by have := j.isLt; omega
  have e1 : atNat T a.val j.val = tf (ix2 a j) :=
    (atNat_eq T a ⟨j.val, hj⟩).trans (hT a ⟨j.val, hj⟩ j.isLt)
  have e2 : atNat Wp d.val j.val = W (ix2 d j) :=
    (atNat_eq Wp d ⟨j.val, hj⟩).trans ((hW d ⟨j.val, hj⟩).trans (dif_pos j.isLt))
  show f (atNat T a.val j.val) * atNat Wp d.val j.val = f (tf (ix2 a j)) * W (ix2 d j)
  rw [e1, e2]

end Idealize.ShloMosaic.Tiles
-- ==== Proof.Spec.lean ====
/-
  The result both programs compute, entry by entry, as a function of the histogram `t`, the length-normalisation
  column `l` and the weight matrix `w`:

    raw[b, d] = Σ_j vEntry (t[b, j]) (l[b, 0]) · w[d, j]          (the scores of row b projected on output d)
    out[b, d] = raw[b, d] / √(Σ_d' raw[b, d']²)                  (every row divided by its Euclidean norm)

  The kernel computes exactly this (it never normalises the scores); the reference first divides the scores of a row by
  their own Euclidean norm, a positive real that cancels in the last quotient.
-/
import proofs.«100497_j27590869909670_1_alg».proof.Proof.Score
import Idealize.ShloMosaic.Lib.ValueIdx

noncomputable section

namespace Cert.Bm25

open Idealize.ShloMosaic Idealize.ShloMosaic.ValueIdx

/-- The scores of row `b` contracted against row `d` of the weight matrix. -/
def rawSpec (t : (⟨2, ![2048, 30000]⟩ : Shape).Idx → EReal) (l : (⟨2, ![2048, 1]⟩ : Shape).Idx → EReal)
    (w : (⟨2, ![768, 30000]⟩ : Shape).Idx → EReal) (b : Fin 2048) (d : Fin 768) : EReal :=
  ∑ j : Fin 30000, vEntry (t (ix2 b j)) (l (ix2 b (0 : Fin 1))) * w (ix2 d j)

/-- The projection of every row divided by that row's Euclidean norm. -/
def outSpec (t : (⟨2, ![2048, 30000]⟩ : Shape).Idx → EReal) (l : (⟨2, ![2048, 1]⟩ : Shape).Idx → EReal)
    (w : (⟨2, ![768, 30000]⟩ : Shape).Idx → EReal) : (⟨2, ![2048, 768]⟩ : Shape).Idx → EReal := fun i =>
  Ideal.div (rawSpec t l w (i 0) (i 1)) (Ideal.sqrt (∑ d : Fin 768, rawSpec t l w (i 0) d * rawSpec t l w (i 0) d))

theorem outSpec_ix2 (t : (⟨2, ![2048, 30000]⟩ : Shape).Idx → EReal) (l : (⟨2, ![2048, 1]⟩ : Shape).Idx → EReal)
    (w : (⟨2, ![768, 30000]⟩ : Shape).Idx → EReal) (b : Fin 2048) (d : Fin 768) :
    outSpec t l w (ix2 b d)
      = Ideal.div (rawSpec t l w b d) (Ideal.sqrt (∑ d' : Fin 768, rawSpec t l w b d' * rawSpec t l w b d')) := rfl

end Cert.Bm25

end
-- ==== Proof.KValue.lean ====
/-
  The kernel's result array, entry by entry, as the specification `outSpec` of the histogram, the length-normalisation
  column and the weight matrix.

  A grid point's tile product reads its blocks at rows `1024·r + p` and columns `768·s + k` of the staged arrays; the
  40 tiles of a batch tile together run over the 30720 padded columns, of which the last 720 contribute nothing (the
  padded weights are 0 there); so the raw sums are the projection over the 30000 true columns, and what the last
  point of the run leaves — hence what the array ends holding — is every row of them divided by its Euclidean norm.
-/
import proofs.«100497_j27590869909670_1_alg».proof.Proof.KFold
import proofs.«100497_j27590869909670_1_alg».proof.Proof.KBlocks
import proofs.«100497_j27590869909670_1_alg».proof.Proof.KArrays
import proofs.«100497_j27590869909670_1_alg».proof.Proof.LibTiles
import proofs.«100497_j27590869909670_1_alg».proof.Proof.Spec

noncomputable section

namespace Cert.Bm25

open Idealize.ShloMosaic Idealize.ShloMosaic.ValueIdx Idealize.ShloMosaic.Tiles Idealize.SL.Sem Cert.KernelIdeal
  Cert.KernelIdeal.Gen Cert.KernelIdeal.Value

variable (m : (ℓ : Loc nD τ sig) → Buf (Elt Ideal) ℓ) (c : Dev nD)

/-- The tile product of vocabulary tile `s` of batch tile `r`, read off the staged arrays. -/
theorem tileTerm_read (r s : ℕ) (hr : r < 2) (hs : s < 40) (p : Fin 1024) (q : Fin 768) :
    tileTerm m c (40 * r + s) p q
      = ∑ k : Fin 768, vEntry (atNat (A := 2048) (B := 30720) (V m c main_v40) (1024 * r + p.val) (768 * s + k.val))
            (V m c main_v39 (ix2 (⟨1024 * r + p.val, by omega⟩ : Fin 2048) (0 : Fin 1)))
          * atNat (A := 768) (B := 30720) (V m c main_v42) q.val (768 * s + k.val) := by
  have hN : 40 * r + s < cfg0.N := by rw [show cfg0.N = 80 from N_0]; omega
  have hd : (40 * r + s) / 40 = r := by omega
  have hm : (40 * r + s) % 40 = s := by omega
  unfold tileTerm
  rw [dif_pos hN]
  refine Finset.sum_congr rfl fun k _ => ?_
  have hk := k.isLt
  have hp := p.isLt
  have hq := q.isLt
  rw [iblk0_apply m c ⟨40 * r + s, hN⟩ p k (ix2 (⟨1024 * r + p.val, by omega⟩ : Fin 2048) (⟨768 * s + k.val, by omega⟩ : Fin 30720))
        (by show 1024 * r + p.val = 1024 * ((40 * r + s) / 40) + p.val; rw [hd])
        (by show 768 * s + k.val = 768 * ((40 * r + s) % 40) + k.val; rw [hm]),
    iblk1_apply m c ⟨40 * r + s, hN⟩ p (0 : Fin 1) (ix2 (⟨1024 * r + p.val, by omega⟩ : Fin 2048) (0 : Fin 1))
        (by show 1024 * r + p.val = 1024 * ((40 * r + s) / 40) + p.val; rw [hd]),
    iblk2_apply m c ⟨40 * r + s, hN⟩ q k (ix2 q (⟨768 * s + k.val, by omega⟩ : Fin 30720)) rfl
        (by show 768 * s + k.val = 768 * ((40 * r + s) % 40) + k.val; rw [hm])]
  unfold atNat
  rw [dif_pos ⟨by omega, by omega⟩, dif_pos ⟨by omega, by omega⟩]

/-- The raw sums of batch tile `r` are the projection of the scores of row `1024·r + p` over the true columns. -/
theorem rawAt_eq (r : ℕ) (hr : r < 2) (p : Fin 1024) (q : Fin 768) :
    rawAt m c r p q
      = rawSpec (tf (F := Ideal) (kIds m c) (kMask m c)) (lenNorm (F := Ideal) (kIds m c) (kMask m c)) (kW m c)
          (⟨1024 * r + p.val, by omega⟩ : Fin 2048) q := by
  unfold rawAt rawSpec
  rw [zero_add, Finset.sum_congr rfl (fun s hs => tileTerm_read m c r s hr (Finset.mem_range.mp hs) p q)]
  refine (tiles_sum (A := 2048) (D := 768)
    (fun x => vEntry x (V m c main_v39 (ix2 (⟨1024 * r + p.val, by omega⟩ : Fin 2048) (0 : Fin 1))))
    (V m c main_v40) (V m c main_v42) (tf (F := Ideal) (kIds m c) (kMask m c)) (kW m c)
    (fun a j hj => tfPad_apply_lt m c a j hj) (fun d j => wPad_apply m c d j)
    (⟨1024 * r + p.val, by omega⟩ : Fin 2048) q).trans ?_
  rw [V_lenNorm]

/-- THE KERNEL'S VALUE: the array it returns is the specification of the histogram, the length normalisation and the
    weights. -/
theorem G3_apply (b : Fin 2048) (d : Fin 768) :
    G3 m c (ix2 b d)
      = outSpec (tf (F := Ideal) (kIds m c) (kMask m c)) (lenNorm (F := Ideal) (kIds m c) (kMask m c)) (kW m c) (ix2 b d) := by
  have hb := b.isLt
  have hd := d.isLt
  have hrun : run3Of (ix2 b d) = b.val / 1024 := by
    show 1 * (b.val / 1024 - 0) + 1 * (d.val / 768 - 0) = b.val / 1024
    have : d.val / 768 = 0 := Nat.div_eq_of_lt hd
    omega
  have hN : 40 * (b.val / 1024) + 39 < cfg0.N := by rw [show cfg0.N = 80 from N_0]; omega
  have hloc : loc3Of (ix2 b d) = ix2 (⟨b.val % 1024, Nat.mod_lt _ (by decide)⟩ : Fin 1024) d := by
    funext a; apply Fin.ext
    match a with
    | ⟨0, _⟩ => rfl
    | ⟨1, _⟩ => show d.val % 768 = d.val; exact Nat.mod_eq_of_lt hd
  have e : ∀ (b1 : ℕ) (h1 : b1 + 39 < cfg0.N) (b2 : ℕ) (h2 : b2 + 39 < cfg0.N), b1 = b2 →
      Pipeline.accAt (reset3 m c) (step3 m c) b1 39 h1 = Pipeline.accAt (reset3 m c) (step3 m c) b2 39 h2 := by
    intro b1 h1 b2 h2 hb; subst hb; rfl
  have hrow : (⟨1024 * (b.val / 1024) + (⟨b.val % 1024, Nat.mod_lt _ (by decide)⟩ : Fin 1024).val, by
      show 1024 * (b.val / 1024) + b.val % 1024 < 2048; omega⟩ : Fin 2048) = b :=
    Fin.ext (Nat.div_add_mod b.val 1024)
  unfold G3
  rw [dif_pos (by rw [hrun]; exact hN), hloc, e _ _ (40 * (b.val / 1024)) hN (by rw [hrun]), fold_apply, outSpec_ix2]
  have hr : b.val / 1024 < 2 := by omega
  simp only [rawAt_eq m c (b.val / 1024) hr, hrow]

end Cert.Bm25

end
-- ==== Proof.Bridge.lean ====
/-
  The reference's result is the specification, and the two runs side by side.

  Read at an entry `(b, d)`, the reference's result is `P[b, d] / √(Σ_d' P[b, d']²)` with
  `P[b, d] = Σ_j (v[b, j] / n[b]) · w[d, j]`, where `v` are the scores and `n[b] = √(Σ_j v[b, j]²)` the Euclidean norm of
  row `b`. Every score is a positive real (the count and the length normalisation are real, the latter at least 1/2) and
  every weight is real (the precondition), so `n[b]` is a positive real: it factors out of each `P[b, d]` and out of the
  second norm, and cancels in the quotient — leaving `R[b, d] / √(Σ_d' R[b, d']²)` with `R[b, d] = Σ_j v[b, j] · w[d, j]`,
  which is what the kernel computes (when every `R[b, d']` is 0 both sides are the same 0/0).
-/
import proofs.«100497_j27590869909670_1_alg».proof.Defs
import proofs.«100497_j27590869909670_1_alg».proof.Proof.Gen.Kernel.Frame
import proofs.«100497_j27590869909670_1_alg».proof.Proof.Gen.KernelIdeal.Value
import proofs.«100497_j27590869909670_1_alg».proof.Proof.Gen.Pre_finite_inputs
import proofs.«100497_j27590869909670_1_alg».proof.Proof.RefRun
import proofs.«100497_j27590869909670_1_alg».proof.Proof.RefRead
import proofs.«100497_j27590869909670_1_alg».proof.Proof.Positive
import proofs.«100497_j27590869909670_1_alg».proof.Proof.LibNormalizeCancel
import proofs.«100497_j27590869909670_1_alg».proof.Proof.KValue

noncomputable section

namespace Cert.Bm25

open Idealize.ShloMosaic Idealize.ShloMosaic.ValueIdx Idealize.SL.Sem Cert.LibNormalizeCancel

section Reference

open Cert.ReferenceIdeal

/-- Every score is a positive real. -/
theorem scores_pos (ids mask : IVec S2048x512 32) (b : Fin 2048) (j : Fin 30000) :
    ∃ r : ℝ, 0 < r ∧ scoresEps (F := Ideal) (tf (F := Ideal) ids mask) (lenNorm (F := Ideal) ids mask) (ix2 b j) = (r : EReal) := by
  obtain ⟨t, ht⟩ := tf_real ids mask (ix2 b j)
  obtain ⟨l, hl, hl'⟩ := lenNorm_real ids mask (ix2 b (0 : Fin 1))
  rw [scoresEps_apply, ht, hl']
  exact vEntry_pos t l hl

/-- THE REFERENCE'S VALUE: normalising the scores before the projection does not change the normalised projection. -/
theorem refOut_apply (ids mask : IVec S2048x512 32) (W : FVec Ideal S768x30000 .f32)
    (hW : ∀ i : S768x30000.Idx, ∃ r : ℝ, W i = (r : EReal)) (b : Fin 2048) (d : Fin 768) :
    refOut (F := Ideal) ids mask W (ix2 b d)
      = outSpec (tf (F := Ideal) ids mask) (lenNorm (F := Ideal) ids mask) W (ix2 b d) := by
  choose r hrpos hr using scores_pos ids mask b
  have hvf : ∀ j : Fin 30000, scoresEps (F := Ideal) (tf (F := Ideal) ids mask) (lenNorm (F := Ideal) ids mask) (ix2 b j) ≠ ⊤
      ∧ scoresEps (F := Ideal) (tf (F := Ideal) ids mask) (lenNorm (F := Ideal) ids mask) (ix2 b j) ≠ ⊥ := fun j => by
    rw [hr j]; exact ⟨EReal.coe_ne_top _, EReal.coe_ne_bot _⟩
  have hwf : ∀ (d' : Fin 768) (j : Fin 30000), W (ix2 d' j) ≠ ⊤ ∧ W (ix2 d' j) ≠ ⊥ := fun d' j => by
    obtain ⟨w, hw⟩ := hW (ix2 d' j)
    rw [hw]; exact ⟨EReal.coe_ne_top _, EReal.coe_ne_bot _⟩
  have hv : (0 : EReal) < ∑ j : Fin 30000,
      scoresEps (F := Ideal) (tf (F := Ideal) ids mask) (lenNorm (F := Ideal) ids mask) (ix2 b j)
        * scoresEps (F := Ideal) (tf (F := Ideal) ids mask) (lenNorm (F := Ideal) ids mask) (ix2 b j) := by
    simp only [hr]
    rw [sum_coe_mul_coe]
    exact EReal.coe_pos.mpr (sum_sq_pos r hrpos)
  unfold refOut
  rw [unitRows768_apply, outSpec_ix2]
  unfold rawSpec
  simp only [project_apply, unitRows_apply, ← scoresEps_apply]
  exact normalize_cancel_ereal
    (fun j : Fin 30000 => scoresEps (F := Ideal) (tf (F := Ideal) ids mask) (lenNorm (F := Ideal) ids mask) (ix2 b j))
    (fun (d' : Fin 768) (j : Fin 30000) => W (ix2 d' j)) hvf hwf hv d

end Reference

end Cert.Bm25

end
-- ==== Proof.lean ====
/-
  The BM25 encoder kernel against its reference, at the ideal values (every float an extended real, every operation
  exact).

  Both programs build, on the host, a row's term-frequency histogram `tf` and its length normalisation `l`, and score
  every (row, term) entry as `v = (tf · 2.2 / (tf + 1.2 · l) where tf > 0, else 0) + 1e-10`.
    * The reference divides each row of `v` by its Euclidean norm, multiplies by the transposed weight matrix, and
      divides each row of the product by its Euclidean norm.
    * The kernel never normalises `v`: over a grid of 2 batch tiles × 40 vocabulary tiles (the vocabulary padded from
      30000 to 30720 columns with zeros) it accumulates `R = v · wᵀ` tile by tile and, at the last tile, divides each
      row of `R` by its Euclidean norm.
  They agree because the norm `n` of a row of `v` is a positive real — every entry of `v` is at least `1e-10`, the
  counts and the length normalisation being real and the latter at least 1/2 — and the weights are real (the
  precondition): `n` factors out of the product and of the second norm and cancels, and on the padding columns the
  kernel adds `1e-10 · 0 = 0`. When a row of `R` is zero both programs return the same value of `0 / 0`.

  The modules: Stages (the host stages as functions), Score and Spec (the scalar score and the result as one function
  `outSpec` of `tf`, `l` and the weights), RefRun (the reference's run, each result at its stages' composition), RefRead
  (those stages at an index), Positive (the scores are positive reals, the weights real), LibNormalizeCancel (the
  cancellation), KPay / KBlocks / KHost / KArrays / KFold / KValue (the kernel's stored values, its blocks, the arrays
  it stages, its fold over the vocabulary tiles, and its result array as `outSpec`), Bridge (the reference's result as
  `outSpec`). The kernel's frame, its value as a fold over the grid, and the facts are the generated modules'.
-/
import proofs.«100497_j27590869909670_1_alg».proof.Proof.Bridge

noncomputable section

/-! ## The claims -/

namespace Cert.Proof

open Idealize.ShloMosaic Idealize.ShloMosaic.ValueIdx Idealize.SL.Sem Cert.Bm25

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.RunP.run (F := Ideal) m ρ)

/-- At the ideal values both programs end with the specification of the histogram, the length normalisation and the
    weights of the (agreeing) arguments: the kernel by its fold over the vocabulary tiles, the reference by the
    cancellation of the scores' norm. -/
theorem algebraic_KernelIdeal_ReferenceIdeal : algebraic_KernelIdeal_ReferenceIdeal := by
  intro m ρ m' ρ' hpre hagree
  refine ⟨fun c => outSpec (tf (F := Ideal) (kIds m c) (kMask m c)) (lenNorm (F := Ideal) (kIds m c) (kMask m c)) (kW m c), ?_, ?_⟩
  · refine (θ_run Cert.KernelIdeal.defs _ _).mono (fun r h c => ⟨(h c).1.trans (funext fun i => ?_), (h c).2⟩)
      (Cert.KernelIdeal.Value.run (F := Ideal) m ρ)
    obtain ⟨b, d, rfl⟩ : ∃ (b : Fin 2048) (d : Fin 768), i = ix2 b d := ⟨i 0, i 1, eq_ix2 i⟩
    exact G3_apply m c b d
  · refine (θ_run Cert.ReferenceIdeal.defs _ _).mono (fun r h c => ⟨(h c).1.trans (funext fun i => ?_), (h c).2⟩)
      (Cert.ReferenceIdeal.RunP.run (F := Ideal) m' ρ')
    obtain ⟨b, d, rfl⟩ : ∃ (b : Fin 2048) (d : Fin 768), i = ix2 b d := ⟨i 0, i 1, eq_ix2 i⟩
    show refOut (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (ix2 b d) = _
    rw [(hagree c).1, (hagree c).2.1, (hagree c).2.2]
    exact refOut_apply _ _ _ (W_real _ _ _ (hpre c)) b d

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
